-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x1 .f32) (main_arg11 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg10
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x1 .f32) (main_arg11 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x64 .f32) (main_arg1 : IVec S2x800000 32) (main_arg2 : FVec F S64x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x1 .f32) (main_arg11 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x1 : Shape := ⟨2, ![1, 1]⟩
abbrev S800000x64 : Shape := ⟨2, ![800000, 64]⟩
abbrev S1x128 : Shape := ⟨2, ![1, 128]⟩
abbrev S50000x128 : Shape := ⟨2, ![50000, 128]⟩
abbrev S5000x64 : Shape := ⟨2, ![5000, 64]⟩
abbrev S5000x128 : Shape := ⟨2, ![5000, 128]⟩
abbrev S800000x128 : Shape := ⟨2, ![800000, 128]⟩
abbrev S50000x1 : Shape := ⟨2, ![50000, 1]⟩
abbrev S5000x1 : Shape := ⟨2, ![5000, 1]⟩

abbrev nBuf : Space → Nat
  | .hbm => 77
  | .vmem => 22
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S1, .i32⟩
  | .hbm, ⟨25, _⟩ => ⟨S_, .i32⟩
  | .hbm, ⟨26, _⟩ => ⟨S800000x1, .i32⟩
  | .hbm, ⟨27, _⟩ => ⟨S800000x1, .i1⟩
  | .hbm, ⟨28, _⟩ => ⟨S1x1, .i32⟩
  | .hbm, ⟨29, _⟩ => ⟨S800000x1, .i32⟩
  | .hbm, ⟨30, _⟩ => ⟨S800000x1, .i1⟩
  | .hbm, ⟨31, _⟩ => ⟨S800000x1, .i1⟩
  | .hbm, ⟨32, _⟩ => ⟨S_, .i1⟩
  | .hbm, ⟨33, _⟩ => ⟨S800000, .i1⟩
  | .hbm, ⟨34, _⟩ => ⟨S800000x64, .f32⟩
  | .hbm, ⟨35, _⟩ => ⟨S800000x64, .i1⟩
  | .hbm, ⟨36, _⟩ => ⟨S_, .f32⟩
  | .hbm, ⟨37, _⟩ => ⟨S800000x64, .f32⟩
  | .hbm, ⟨38, _⟩ => ⟨S800000x64, .f32⟩
  | .hbm, ⟨39, _⟩ => ⟨S_, .f32⟩
  | .hbm, ⟨40, _⟩ => ⟨S50000x64, .f32⟩
  | .hbm, ⟨41, _⟩ => ⟨S800000x1, .i32⟩
  | .hbm, ⟨42, _⟩ => ⟨S50000x64, .f32⟩
  | .hbm, ⟨43, _⟩ => ⟨S1x128, .f32⟩
  | .hbm, ⟨44, _⟩ => ⟨S1x128, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S1, .i32⟩
  | .hbm, ⟨55, _⟩ => ⟨S_, .i32⟩
  | .hbm, ⟨56, _⟩ => ⟨S800000x1, .i32⟩
  | .hbm, ⟨57, _⟩ => ⟨S800000x1, .i1⟩
  | .hbm, ⟨58, _⟩ => ⟨S1x1, .i32⟩
  | .hbm, ⟨59, _⟩ => ⟨S800000x1, .i32⟩
  | .hbm, ⟨60, _⟩ => ⟨S800000x1, .i1⟩
  | .hbm, ⟨61, _⟩ => ⟨S800000x1, .i1⟩
  | .hbm, ⟨62, _⟩ => ⟨S_, .i1⟩
  | .hbm, ⟨63, _⟩ => ⟨S800000, .i1⟩
  | .hbm, ⟨64, _⟩ => ⟨S800000x128, .f32⟩
  | .hbm, ⟨65, _⟩ => ⟨S800000x128, .i1⟩
  | .hbm, ⟨66, _⟩ => ⟨S_, .f32⟩
  | .hbm, ⟨67, _⟩ => ⟨S800000x128, .f32⟩
  | .hbm, ⟨68, _⟩ => ⟨S800000x128, .f32⟩
  | .hbm, ⟨69, _⟩ => ⟨S_, .f32⟩
  | .hbm, ⟨70, _⟩ => ⟨S50000x128, .f32⟩
  | .hbm, ⟨71, _⟩ => ⟨S800000x1, .i32⟩
  | .hbm, ⟨72, _⟩ => ⟨S50000x128, .f32⟩
  | .hbm, ⟨73, _⟩ => ⟨S1x128, .f32⟩
  | .hbm, ⟨74, _⟩ => ⟨S1x128, .f32⟩
  | .hbm, ⟨75, _⟩ => ⟨S1x1, .f32⟩
  | .hbm, ⟨76, _⟩ => ⟨S50000x1, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S128x1, .f32⟩
  | .local _ .vmem, ⟨19, _⟩ => ⟨S1x1, .f32⟩
  | .local _ .vmem, ⟨20, _⟩ => ⟨S5000x1, .f32⟩
  | .local _ .vmem, ⟨21, _⟩ => ⟨S5000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v4 : Ref sig .tc := ⟨.hbm, 38, rfl⟩
abbrev main_cst : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v11 : Ref sig .tc := ⟨.hbm, 68, rfl⟩
abbrev main_cst_0 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  shapeCasts_S1_S1x1 : S1.ShapeCasts S1x1
  shapeCasts_S5000x128_S5000x128 : S5000x128.ShapeCasts S5000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x1.size a ≤ S128x1.size a
  hwx1_6 : ∀ i : grid1.Coords, EltTy.bits .f32 = 32 ∨ (Rect.block (s := S128x1) S128x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x1.size a ≤ S50000x1.size a
  hwx1_8 : ∀ i : grid1.Coords, EltTy.bits .f32 = 32 ∨ (Rect.block (s := S50000x1) S5000x1.size (cc1_transform_8 i) (hinb1_8 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v10) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S128x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v17) S1x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v18) S5000x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x1 : Shape := ⟨2, ![1, 1]⟩
abbrev S800000x64 : Shape := ⟨2, ![800000, 64]⟩
abbrev S50000x128 : Shape := ⟨2, ![50000, 128]⟩
abbrev S1x128 : Shape := ⟨2, ![1, 128]⟩
abbrev S800000x128 : Shape := ⟨2, ![800000, 128]⟩
abbrev S50000x1 : Shape := ⟨2, ![50000, 1]⟩

abbrev nBuf : Space → Nat
  | .hbm => 104
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S1, .i32⟩
  | .hbm, ⟨25, _⟩ => ⟨S_, .i32⟩
  | .hbm, ⟨26, _⟩ => ⟨S800000x1, .i32⟩
  | .hbm, ⟨27, _⟩ => ⟨S800000x1, .i1⟩
  | .hbm, ⟨28, _⟩ => ⟨S1x1, .i32⟩
  | .hbm, ⟨29, _⟩ => ⟨S800000x1, .i32⟩
  | .hbm, ⟨30, _⟩ => ⟨S800000x1, .i1⟩
  | .hbm, ⟨31, _⟩ => ⟨S800000x1, .i1⟩
  | .hbm, ⟨32, _⟩ => ⟨S_, .i1⟩
  | .hbm, ⟨33, _⟩ => ⟨S800000, .i1⟩
  | .hbm, ⟨34, _⟩ => ⟨S800000x64, .f32⟩
  | .hbm, ⟨35, _⟩ => ⟨S800000x64, .i1⟩
  | .hbm, ⟨36, _⟩ => ⟨S_, .f32⟩
  | .hbm, ⟨37, _⟩ => ⟨S800000x64, .f32⟩
  | .hbm, ⟨38, _⟩ => ⟨S800000x64, .f32⟩
  | .hbm, ⟨39, _⟩ => ⟨S_, .f32⟩
  | .hbm, ⟨40, _⟩ => ⟨S50000x64, .f32⟩
  | .hbm, ⟨41, _⟩ => ⟨S800000x1, .i32⟩
  | .hbm, ⟨42, _⟩ => ⟨S50000x64, .f32⟩
  | .hbm, ⟨43, _⟩ => ⟨S50000x64, .f32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S1x128, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S50000x128, .f32⟩
  | .hbm, ⟨57, _⟩ => ⟨S50000x128, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S1, .i32⟩
  | .hbm, ⟨67, _⟩ => ⟨S_, .i32⟩
  | .hbm, ⟨68, _⟩ => ⟨S800000x1, .i32⟩
  | .hbm, ⟨69, _⟩ => ⟨S800000x1, .i1⟩
  | .hbm, ⟨70, _⟩ => ⟨S1x1, .i32⟩
  | .hbm, ⟨71, _⟩ => ⟨S800000x1, .i32⟩
  | .hbm, ⟨72, _⟩ => ⟨S800000x1, .i1⟩
  | .hbm, ⟨73, _⟩ => ⟨S800000x1, .i1⟩
  | .hbm, ⟨74, _⟩ => ⟨S_, .i1⟩
  | .hbm, ⟨75, _⟩ => ⟨S800000, .i1⟩
  | .hbm, ⟨76, _⟩ => ⟨S800000x128, .f32⟩
  | .hbm, ⟨77, _⟩ => ⟨S800000x128, .i1⟩
  | .hbm, ⟨78, _⟩ => ⟨S_, .f32⟩
  | .hbm, ⟨79, _⟩ => ⟨S800000x128, .f32⟩
  | .hbm, ⟨80, _⟩ => ⟨S800000x128, .f32⟩
  | .hbm, ⟨81, _⟩ => ⟨S_, .f32⟩
  | .hbm, ⟨82, _⟩ => ⟨S50000x128, .f32⟩
  | .hbm, ⟨83, _⟩ => ⟨S800000x1, .i32⟩
  | .hbm, ⟨84, _⟩ => ⟨S50000x128, .f32⟩
  | .hbm, ⟨85, _⟩ => ⟨S50000x128, .f32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S_, .f32⟩
  | .hbm, ⟨91, _⟩ => ⟨S50000x128, .f32⟩
  | .hbm, ⟨92, _⟩ => ⟨S50000x128, .f32⟩
  | .hbm, ⟨93, _⟩ => ⟨S50000x128, .f32⟩
  | .hbm, ⟨94, _⟩ => ⟨S1x128, .f32⟩
  | .hbm, ⟨95, _⟩ => ⟨S50000x128, .f32⟩
  | .hbm, ⟨96, _⟩ => ⟨S50000x128, .f32⟩
  | .hbm, ⟨97, _⟩ => ⟨S_, .f32⟩
  | .hbm, ⟨98, _⟩ => ⟨S50000x128, .f32⟩
  | .hbm, ⟨99, _⟩ => ⟨S50000x128, .f32⟩
  | .hbm, ⟨100, _⟩ => ⟨S50000x1, .f32⟩
  | .hbm, ⟨101, _⟩ => ⟨S1x1, .f32⟩
  | .hbm, ⟨102, _⟩ => ⟨S50000x1, .f32⟩
  | .hbm, ⟨103, _⟩ => ⟨S50000x1, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v4 : Ref sig .tc := ⟨.hbm, 38, rfl⟩
abbrev main_cst : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_cst_0 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_cst_1 : Ref sig .tc := ⟨.hbm, 55, rfl⟩
abbrev main_v19 : Ref sig .tc := ⟨.hbm, 56, rfl⟩
abbrev main_v20 : Ref sig .tc := ⟨.hbm, 57, rfl⟩
abbrev main_call1_c : Ref sig .tc := ⟨.hbm, 58, rfl⟩
abbrev main_call1_v0 : Ref sig .tc := ⟨.hbm, 59, rfl⟩
abbrev main_call1_v1 : Ref sig .tc := ⟨.hbm, 60, rfl⟩
abbrev main_call1_c_0 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_c_1 : Ref sig .tc := ⟨.hbm, 66, rfl⟩
abbrev main_call1_c_2 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_c_3 : Ref sig .tc := ⟨.hbm, 74, rfl⟩
abbrev main_call1_v12 : Ref sig .tc := ⟨.hbm, 75, rfl⟩
abbrev main_call1_v13 : Ref sig .tc := ⟨.hbm, 76, rfl⟩
abbrev main_call1_v14 : Ref sig .tc := ⟨.hbm, 77, rfl⟩
abbrev main_call1_cst : Ref sig .tc := ⟨.hbm, 78, rfl⟩
abbrev main_call1_v15 : Ref sig .tc := ⟨.hbm, 79, rfl⟩
abbrev main_v21 : Ref sig .tc := ⟨.hbm, 80, rfl⟩
abbrev main_cst_2 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_cst_3 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_v35 : Ref sig .tc := ⟨.hbm, 96, rfl⟩
abbrev main_cst_4 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S1x1_S50000x1_0_1 : S1x1.BroadcastsInDim S50000x1 (![0, 1] : Fin 2 → Fin S50000x1.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x128_S50000x128_1_0_0_1_n_n_wf : DotDims.WF S50000x64 S64x128 S50000x128 [1] [0] [0] [1] [] []
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x1_S50000x1_1_0_0_1_n_n_wf : DotDims.WF S50000x128 S128x1 S50000x1 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KernelRun.lean ====
/- The run of the idealized kernel program with its result NAMED.

   The program's @main is seven segments: three stretches of host operations, the first
   pallas_call, two more stretches, the second pallas_call.  The buffer contents at each
   segment boundary are a fold from the launch memory; at the end of the last segment every
   unscoped buffer holds that fold's last value.  The result buffer is the ninth array
   (window 8) of the second pallas_call, so what it holds at the end is what that call's
   write-backs leave in that array, and the twelve argument buffers hold what they held at
   launch: no host operation and no pallas_call writes an argument. -/
import proofs.«133278_j4423816315318_1_alg».proof.Proof.Gen.KernelIdeal.Frame
import Idealize.ShloMosaic.Lib.StableHlo.Run
import Idealize.ShloMosaic.PureOps.Ideal

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The result buffer is the array of the second pallas_call's window 8. -/
theorem arrRef_result : Pipeline.arrRef spec1 8 = main_v18 := rfl

/-- At the end of the last segment the result buffer holds what the second pallas_call's
    write-backs leave in its output array. -/
theorem result_eq (m : (ℓ : Loc nD τ sig) → Buf (Elt Ideal) ℓ) (ρ : Dev nD → PrngReg) (c : Dev nD) :
    W7 (F := Ideal) m ρ c (Proc.devRef .tc main_v18) = (dat1 (F := Ideal) (V6 m ρ) c).arrAt 8 cfg1.N :=
  W7_arr (F := Ideal) m ρ c 8

-- the launch theorem's implicit arguments are found by unifying its conclusion with this one, which takes
-- unfolding plain definitions in a metavariable's type
set_option backward.isDefEq.respectTransparency.types false in
/-- Every weakly fair execution of the idealized kernel program terminates without a fault; the
    result buffer ends at what the second pallas_call leaves in its output array, read at that
    call's entry contents `V6`, and the twelve arguments end as launched. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
        r.2.mem ((c.tc : Thread nD τ).loc main_v18) = (dat1 (F := Ideal) (V6 m ρ) c).arrAt 8 cfg1.N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨(h c _ (mem_uc main_v18 (by decide))).trans (result_eq m ρ c),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c)⟩)

end Cert.KernelIdeal.KValue

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibRowRead.lean ====
/-
  Rows of matrices, read through the operations a row-wise network is printed with, at the ideal values.

  A value of shape [A, n] is read one row at a time: `rowOf X p` is row `p` as a function of the column, and
  `mat W` is a weight matrix as a function of row and column. Each lemma says what one operation does to a row:
  a plain matrix product (a kernel's `tpu.matmul` into the zero accumulator, the host's `dot_general`) is the
  linear layer `j ↦ Σ_i h i · W i j` of the row; a maximum with the zero splat is the rectifier of the row; a
  change of float format and a shape cast to the same shape change nothing; a slice of columns takes those columns
  of the row; two matrices set side by side give the first's row followed by the second's.
-/
import Idealize.ShloMosaic.PureOps.Ideal.Laws
import Idealize.ShloMosaic.Lib.ValueIdx
import Idealize.ShloMosaic.Lib.Pipeline.Value
import proofs.«133278_j4423816315318_1_alg».proof.Proof.LibPlainMatmul

noncomputable section

namespace RowRead

open Idealize.ShloMosaic Idealize.ShloMosaic.ValueIdx Finset

/-- Row `p` of an [A, n] value, as a function of the column. -/
def rowOf {A n : ℕ} (X : (⟨2, ![A, n]⟩ : Shape).Idx → EReal) (p : Fin A) : Fin n → EReal := fun k => X (ix2 p k)

/-- A matrix as a function of row and column. -/
def mat {a b : ℕ} (W : (⟨2, ![a, b]⟩ : Shape).Idx → EReal) : Fin a → Fin b → EReal := fun i j => W (ix2 i j)

/-- Three matrices of one shape, by their place. -/
def mats3 {a b : ℕ} (u0 u1 u2 : (⟨2, ![a, b]⟩ : Shape).Idx → EReal) : Fin 3 → Fin a → Fin b → EReal :=
  fun n => mat (![u0, u1, u2] n)

/-- A kernel's plain [A, K] × [K, B] product into the zero accumulator: row `p` is the linear layer of the left
    operand's row `p`. -/
theorem rowOf_matmul {A K B : ℕ} {φ₁ φ₂ : FTy} (D : DotDims ⟨2, ![A, K]⟩ ⟨2, ![K, B]⟩ ⟨2, ![A, B]⟩) (hD : D = DotDims.plain A K B)
    (prec : Option ContractPrecision) (lhs : FVec Ideal ⟨2, ![A, K]⟩ φ₁) (rhs : FVec Ideal ⟨2, ![K, B]⟩ φ₂) (p : Fin A) :
    rowOf (FloatOps.matmul D prec lhs rhs (constant ⟨2, ![A, B]⟩ .f32 0x00000000#32)) p = fun j => ∑ i, rowOf lhs p i * mat rhs i j := by
  subst hD
  funext j
  exact matmul_plain_zero_apply A K B prec lhs rhs p j

/-- The host's plain [A, K] × [K, B] `dot_general`: the same. -/
theorem rowOf_dotGeneral {A K B : ℕ} {φ₁ φ₂ : FTy} (D : DotDims ⟨2, ![A, K]⟩ ⟨2, ![K, B]⟩ ⟨2, ![A, B]⟩) (hD : D = DotDims.plain A K B)
    (prec : Option ContractPrecision) (sched : HostSchedule) (lhs : FVec Ideal ⟨2, ![A, K]⟩ φ₁) (rhs : FVec Ideal ⟨2, ![K, B]⟩ φ₂) (p : Fin A) :
    rowOf (FloatOps.dotGeneral D prec sched lhs rhs) p = fun j => ∑ i, rowOf lhs p i * mat rhs i j := by
  subst hD
  funext j
  show FloatOps.dotGeneral (DotDims.plain A K B) prec sched lhs rhs (ix2 p j) = ∑ k : Fin K, lhs (ix2 p k) * rhs (ix2 k j)
  rw [Ideal.dotGeneral_apply, ← Equiv.sum_comp (contrEquiv1 (DotDims.plain A K B) K rfl rfl).symm]
  refine sum_congr rfl fun k _ => ?_
  rw [plain_lhsIdx, plain_rhsIdx]

/-- A maximum with a value that is zero everywhere is the rectifier of the row. -/
theorem rowOf_max_zero {A n : ℕ} (v z : (⟨2, ![A, n]⟩ : Shape).Idx → EReal) (hz : ∀ i, z i = 0) (p : Fin A) :
    rowOf (fun i => max (v i) (z i)) p = fun j => max (rowOf v p j) 0 := by
  funext j
  show max (v (ix2 p j)) (z (ix2 p j)) = max (v (ix2 p j)) 0
  rw [hz]

/-- A kernel's maximum with the splat of a scalar that is zero: the rectifier of the row. -/
theorem rowOf_max_splat {A n : ℕ} {φ : FTy} (v : FVec Ideal ⟨2, ![A, n]⟩ φ) (z : Ideal φ) (hz : z = (0 : EReal)) (p : Fin A) :
    rowOf (maximumf v (broadcast ⟨2, ![A, n]⟩ z)) p = fun j => max (rowOf v p j) 0 :=
  rowOf_max_zero v (broadcast ⟨2, ![A, n]⟩ z) (fun _ => hz) p

/-- The host's maximum with a scalar zero constant broadcast to the shape: the same. -/
theorem rowOf_max_host {A n : ℕ} (v : FVec Ideal ⟨2, ![A, n]⟩ .f32)
    (hb : (⟨0, ![]⟩ : Shape).BroadcastsInDim ⟨2, ![A, n]⟩ (![] : Fin 0 → Fin 2)) (p : Fin A) :
    rowOf (maximumf v (broadcastInDim ⟨2, ![A, n]⟩ ![] hb (constant (F := Ideal) ⟨0, ![]⟩ .f32 0x00000000#32))) p
      = fun j => max (rowOf v p j) 0 :=
  rowOf_max_zero v _ (fun i => by
    rw [broadcastInDim_apply ![] hb _ i ix0 (fun a => a.elim0)]
    exact Ideal.ofBits_zero_f32) p

/-- A change of float format changes nothing. -/
theorem rowOf_truncf {A n : ℕ} {φ ψ : FTy} (v : FVec Ideal ⟨2, ![A, n]⟩ φ) (h : ψ.bits < φ.bits) (p : Fin A) :
    rowOf (truncf ψ v h : FVec Ideal ⟨2, ![A, n]⟩ ψ) p = rowOf v p := rfl

/-- A slice of `n` columns from column `o` on takes those columns of the row. -/
theorem rowOf_slice {A N n : ℕ} (o : ℕ) (ho : o + n ≤ N) (X : (⟨2, ![A, N]⟩ : Shape).Idx → EReal)
    (h : (⟨2, ![A, N]⟩ : Shape).Slices ![0, o] ⟨2, ![A, n]⟩) (p : Fin A) :
    rowOf (extractStridedSlice ⟨2, ![A, n]⟩ ![0, o] X h) p = fun k => rowOf X p ⟨o + k.val, by have := k.isLt; omega⟩ := by
  funext k
  exact extractStridedSlice_apply ![0, o] X h (ix2 p k) (ix2 p ⟨o + k.val, by have := k.isLt; omega⟩) (fun a => by
    match a with
    | ⟨0, _⟩ => show p.val = 0 + p.val; omega
    | ⟨1, _⟩ => rfl)

/-- A slice of the first `n` columns. -/
theorem rowOf_slice_front {A N n : ℕ} (ho : n ≤ N) (X : (⟨2, ![A, N]⟩ : Shape).Idx → EReal)
    (h : (⟨2, ![A, N]⟩ : Shape).Slices ![0, 0] ⟨2, ![A, n]⟩) (p : Fin A) :
    rowOf (extractStridedSlice ⟨2, ![A, n]⟩ ![0, 0] X h) p = fun k => rowOf X p ⟨k.val, by have := k.isLt; omega⟩ := by
  rw [rowOf_slice 0 (by omega)]
  funext k
  exact congrArg (fun q => X (ix2 p q)) (Fin.ext (Nat.zero_add _))

/-- Two matrices set side by side: the first's row, then the second's. -/
theorem rowOf_beside {A n₁ n₂ N : ℕ} (x₁ : (⟨2, ![A, n₁]⟩ : Shape).Idx → EReal) (x₂ : (⟨2, ![A, n₂]⟩ : Shape).Idx → EReal)
    (h : Shape.Concatenates [(⟨2, ![A, n₁]⟩ : Shape), ⟨2, ![A, n₂]⟩] ⟨2, ![A, N]⟩ 1) (hN : n₁ + n₂ = N) (p : Fin A) :
    rowOf (concatenate ⟨2, ![A, N]⟩ 1 [⟨⟨2, ![A, n₁]⟩, x₁⟩, ⟨⟨2, ![A, n₂]⟩, x₂⟩] h) p
      = fun k => if hk : k.val < n₁ then rowOf x₁ p ⟨k.val, hk⟩ else rowOf x₂ p ⟨k.val - n₁, by have := k.isLt; omega⟩ := by
  funext k
  by_cases hk : k.val < n₁
  · rw [dif_pos hk]
    exact concatenate_pair_apply_left 1 x₁ x₂ h (ix2 p k) rfl (ix2 p ⟨k.val, hk⟩) (fun b => by
      match b with
      | ⟨0, _⟩ => rfl
      | ⟨1, _⟩ => rfl)
  · rw [dif_neg hk]
    exact concatenate_pair_apply_right 1 x₁ x₂ h (ix2 p k) rfl rfl (ix2 p ⟨k.val - n₁, by have := k.isLt; omega⟩) (fun b hb => by
      match b with
      | ⟨0, _⟩ => rfl
      | ⟨1, _⟩ => exact absurd rfl hb) (by show k.val - n₁ + n₁ = k.val; omega)

end RowRead

end
-- ==== Proof.LibRowBroadcast.lean ====
/-
  A ROW `[1, b]` spread over `a` rows: the broadcast to `[a, b]` reads, at `(p, c)`, the row's entry of column `c`
  — every row of the result is the one row of the operand. The unit coordinate `u : Fin 1` is whatever the caller
  writes: there is only one.
-/
import Idealize.ShloMosaic.Lib.ValueLayout

namespace Cert.LibRowBroadcast

open Idealize.ShloMosaic Idealize.ShloMosaic.ValueIdx

variable {α : Type}

/-- A row `[1, b]` broadcast to `[a, b]` reads, at `(p, c)`, the row's entry of column `c`. -/
theorem broadcastTo_1b_ab_apply {a b : ℕ} (v : (⟨2, ![1, b]⟩ : Shape).Idx → α) (h : (⟨2, ![1, b]⟩ : Shape).Broadcasts ⟨2, ![a, b]⟩)
    (p : Fin a) (c : Fin b) (u : Fin 1) : broadcastTo ⟨2, ![a, b]⟩ v h (ix2 p c) = v (ix2 u c) := by
  refine broadcastTo_apply v h (ix2 p c) (ix2 u c) fun ax => ?_
  match ax with
  | ⟨0, _⟩ =>
    show u.val = if (1 : ℕ) = 1 then 0 else p.val
    rw [if_pos rfl]; omega
  | ⟨1, _⟩ =>
    show c.val = if b = 1 then 0 else c.val
    split
    · have := c.isLt; omega
    · rfl

end Cert.LibRowBroadcast
-- ==== Proof.GinSpec.lean ====
/-
  Two graph convolutions with sum aggregation, and a linear read-out, one node at a time.

  Every node carries a row of features. A convolution adds to a node's row the sum of its in-neighbours' rows and
  sends the result through two affine layers, each followed by the rectifier; the read-out is one more affine layer.
  Here a row is a function of its column, a weight matrix a function of row and column, a bias a function of its
  column; sums run over the whole column range, in the extended reals. Nothing below needs the entries to be finite:
  the two programs compared against this description apply the same operations in the same order to each row, and
  only the grouping of rows into tiles differs.
-/
import Idealize.ShloMosaic.PureOps.Ideal
import Idealize.ShloMosaic.Lib.ValueIdx
import proofs.«133278_j4423816315318_1_alg».proof.Proof.LibRowRead

noncomputable section

namespace GinSpec

open Idealize.ShloMosaic Idealize.ShloMosaic.ValueIdx RowRead Finset

/-- A vector as a function of its one coordinate. -/
def vec {n : ℕ} (b : (⟨1, ![n]⟩ : Shape).Idx → EReal) : Fin n → EReal := fun j => b (ix1 j)

/-- The one row of a [1, n] matrix as a function of the column. -/
def row0 {n : ℕ} (b : (⟨2, ![1, n]⟩ : Shape).Idx → EReal) : Fin n → EReal := fun j => b (ix2 0 j)

/-- The affine layer of a row: column j of the result is Σ_i h i · W i j + b j. -/
def dense {n k : ℕ} (W : Fin n → Fin k → EReal) (b : Fin k → EReal) (h : Fin n → EReal) : Fin k → EReal :=
  fun j => (∑ i, h i * W i j) + b j

/-- The rectifier of a row. -/
def relu {k : ℕ} (h : Fin k → EReal) : Fin k → EReal := fun j => max (h j) 0

/-- One convolution on a node: the node's row plus its aggregated neighbours' row, through two affine layers, each
    followed by the rectifier. -/
def conv {n k : ℕ} (W : Fin n → Fin k → EReal) (b : Fin k → EReal) (W' : Fin k → Fin k → EReal) (b' : Fin k → EReal)
    (x a : Fin n → EReal) : Fin k → EReal :=
  relu (dense W' b' (relu (dense W b (fun i => x i + a i))))

/-- Two matrices with the same rows are equal. -/
theorem ext_rows {A n : ℕ} (X Y : (⟨2, ![A, n]⟩ : Shape).Idx → EReal) (h : ∀ p, rowOf X p = rowOf Y p) : X = Y := by
  funext i
  obtain ⟨p, q, rfl⟩ : ∃ (p : Fin A) (q : Fin n), i = ix2 p q := ⟨i 0, i 1, eq_ix2 i⟩
  exact congrFun (h p) q

end GinSpec

end
-- ==== Proof.KBody.lean ====
/-
  The two kernel bodies, one row at a time.

  Each body loads a tile of node rows and a tile of aggregated neighbour rows, the weight matrices and the bias
  rows, and computes — entirely in vector operations on the tile — what the convolution does to every row of the
  tile. An affine layer is printed as a matrix product into the zero accumulator of the operands rounded to a
  shorter format (which changes nothing here) plus the bias row spread over the tile's rows; the rectifier as a
  maximum with the zero splat. Read at row p, the first body's result is the convolution of row p, and the second
  body's the read-out layer of the second convolution of row p.
-/
import proofs.«133278_j4423816315318_1_alg».proof.Proof.Gen.KernelIdeal.Skeleton
import proofs.«133278_j4423816315318_1_alg».proof.Proof.LibRowRead
import proofs.«133278_j4423816315318_1_alg».proof.Proof.LibRowBroadcast
import proofs.«133278_j4423816315318_1_alg».proof.Proof.GinSpec
import Idealize.ShloMosaic.Lib.Pipeline.Value

noncomputable section

namespace Cert.KernelIdeal.KBody

open Idealize.ShloMosaic Idealize.ShloMosaic.ValueIdx Idealize.SL.Sem RowRead GinSpec Finset
open Cert.KernelIdeal Cert.KernelIdeal.Gen

/-- A sum of two tiles, read at a row, is the sum of the rows. -/
theorem rowOf_addf {A n : ℕ} (u v : FVec Ideal ⟨2, ![A, n]⟩ .f32) (p : Fin A) :
    rowOf (addf u v) p = fun j => rowOf u p j + rowOf v p j := rfl

/-- A kernel's affine layer on a tile — the product of the rounded operands into the zero accumulator, plus the
    bias row spread over the rows — read at row p is the affine layer of the left operand's row p. -/
theorem rowOf_affine {A K B : ℕ} (D : DotDims ⟨2, ![A, K]⟩ ⟨2, ![K, B]⟩ ⟨2, ![A, B]⟩) (hD : D = DotDims.plain A K B)
    (L : FVec Ideal ⟨2, ![A, K]⟩ .f32) (W : FVec Ideal ⟨2, ![K, B]⟩ .f32) (b : FVec Ideal ⟨2, ![1, B]⟩ .f32)
    (ht : FTy.bf16.bits < FTy.f32.bits) (hs : (⟨2, ![1, B]⟩ : Shape).ShapeCasts ⟨2, ![1, B]⟩)
    (hb : (⟨2, ![1, B]⟩ : Shape).Broadcasts ⟨2, ![A, B]⟩) (p : Fin A) :
    rowOf (addf (matmul D none (truncf .bf16 L ht) (truncf .bf16 W ht) (constant ⟨2, ![A, B]⟩ .f32 0x00000000#32))
        (broadcastTo ⟨2, ![A, B]⟩ (shapeCast ⟨2, ![1, B]⟩ b hs) hb)) p
      = dense (mat W) (row0 b) (rowOf L p) := by
  rw [rowOf_addf, rowOf_matmul D hD none (truncf .bf16 L ht) (truncf .bf16 W ht) p, shapeCast_self]
  funext j
  show (∑ i, rowOf (truncf .bf16 L ht) p i * mat (truncf .bf16 W ht) i j) + broadcastTo ⟨2, ![A, B]⟩ b hb (ix2 p j) = _
  rw [Cert.LibRowBroadcast.broadcastTo_1b_ab_apply b hb p j 0]
  rfl

/-- The same layer followed by the maximum with the zero splat: the rectified affine layer of the row. -/
theorem rowOf_affine_relu {A K B : ℕ} (D : DotDims ⟨2, ![A, K]⟩ ⟨2, ![K, B]⟩ ⟨2, ![A, B]⟩) (hD : D = DotDims.plain A K B)
    (L : FVec Ideal ⟨2, ![A, K]⟩ .f32) (W : FVec Ideal ⟨2, ![K, B]⟩ .f32) (b : FVec Ideal ⟨2, ![1, B]⟩ .f32)
    (ht : FTy.bf16.bits < FTy.f32.bits) (hs : (⟨2, ![1, B]⟩ : Shape).ShapeCasts ⟨2, ![1, B]⟩)
    (hb : (⟨2, ![1, B]⟩ : Shape).Broadcasts ⟨2, ![A, B]⟩) (p : Fin A) :
    rowOf (maximumf (addf (matmul D none (truncf .bf16 L ht) (truncf .bf16 W ht) (constant ⟨2, ![A, B]⟩ .f32 0x00000000#32))
        (broadcastTo ⟨2, ![A, B]⟩ (shapeCast ⟨2, ![1, B]⟩ b hs) hb)) (broadcast ⟨2, ![A, B]⟩ (Scalar.ofBits .f32 0x00000000#32))) p
      = relu (dense (mat W) (row0 b) (rowOf L p)) := by
  refine (rowOf_max_splat _ (Scalar.ofBits (F := Ideal) .f32 0x00000000#32)
    (show (FloatOps.ofBits (F := Ideal) .f32 0x00000000#32 : EReal) = 0 from Ideal.ofBits_zero_f32) p).trans ?_
  rw [rowOf_affine D hD L W b ht hs hb p]
  rfl

/-- The first body's result at row p of its tile: the convolution of the node's row p and its aggregated row p. -/
theorem rowOf_pay0 (x0 x1 : FVec Ideal S5000x64 .f32) (x2 : FVec Ideal S64x128 .f32) (x3 : FVec Ideal S1x128 .f32)
    (x4 : FVec Ideal S128x128 .f32) (x5 : FVec Ideal S1x128 .f32) (p : Fin 5000) :
    rowOf (k0_pay1 (F := Ideal) x0 x1 x2 x3 x4 x5) p
      = conv (mat x2) (row0 x3) (mat x4) (row0 x5) (rowOf x0 p) (rowOf x1 p) := by
  unfold k0_pay1
  refine (rowOf_affine_relu dot_S5000x128_S128x128_S5000x128_1_0_0_1_n_n rfl _ x4 x5 bitsLt_bf16_f32
    shapeCasts_S1x128_S1x128 broadcasts_S1x128_S5000x128 p).trans ?_
  refine congrArg (fun h => relu (dense (mat x4) (row0 x5) h)) ?_
  refine (rowOf_affine_relu dot_S5000x64_S64x128_S5000x128_1_0_0_1_n_n rfl _ x2 x3 bitsLt_bf16_f32
    shapeCasts_S1x128_S1x128 broadcasts_S1x128_S5000x128 p).trans ?_
  refine congrArg (fun h => relu (dense (mat x2) (row0 x3) h)) ?_
  refine (rowOf_addf x0 (shapeCast S5000x64 x1 shapeCasts_S5000x64_S5000x64) p).trans ?_
  exact congrArg (fun v : FVec Ideal S5000x64 .f32 => fun j => rowOf x0 p j + rowOf v p j)
    (shapeCast_self x1 shapeCasts_S5000x64_S5000x64)

/-- The second body's result at row p of its tile: the read-out layer of the second convolution of row p. -/
theorem rowOf_pay1 (x0 x1 : FVec Ideal S5000x128 .f32) (x2 : FVec Ideal S128x128 .f32) (x3 : FVec Ideal S1x128 .f32)
    (x4 : FVec Ideal S128x128 .f32) (x5 : FVec Ideal S1x128 .f32) (x6 : FVec Ideal S128x1 .f32) (x7 : FVec Ideal S1x1 .f32)
    (p : Fin 5000) :
    rowOf (k1_pay1 (F := Ideal) x0 x1 x2 x3 x4 x5 x6 x7) p
      = dense (mat x6) (row0 x7) (conv (mat x2) (row0 x3) (mat x4) (row0 x5) (rowOf x0 p) (rowOf x1 p)) := by
  unfold k1_pay1
  refine (rowOf_affine dot_S5000x128_S128x1_S5000x1_1_0_0_1_n_n rfl _ x6 x7 bitsLt_bf16_f32
    shapeCasts_S1x1_S1x1 broadcasts_S1x1_S5000x1 p).trans ?_
  refine congrArg (fun h => dense (mat x6) (row0 x7) h) ?_
  refine (rowOf_affine_relu dot_S5000x128_S128x128_S5000x128_1_0_0_1_n_n rfl _ x4 x5 bitsLt_bf16_f32
    shapeCasts_S1x128_S1x128 broadcasts_S1x128_S5000x128 p).trans ?_
  refine congrArg (fun h => relu (dense (mat x4) (row0 x5) h)) ?_
  refine (rowOf_affine_relu dot_S5000x128_S128x128_S5000x128_1_0_0_1_n_n rfl _ x2 x3 bitsLt_bf16_f32
    shapeCasts_S1x128_S1x128 broadcasts_S1x128_S5000x128 p).trans ?_
  refine congrArg (fun h => relu (dense (mat x2) (row0 x3) h)) ?_
  refine (rowOf_addf (shapeCast S5000x128 x0 shapeCasts_S5000x128_S5000x128)
    (shapeCast S5000x128 x1 shapeCasts_S5000x128_S5000x128) p).trans ?_
  rw [shapeCast_self x0, shapeCast_self x1]

end Cert.KernelIdeal.KBody

end
-- ==== Proof.KTile0.lean ====
/-
  The first convolution's dense layers, from tiles to the whole array.

  The node axis is cut into ten tiles of 5000 rows. At tile t the kernel reads rows 5000·t … 5000·t + 4999 of the
  node features and of the aggregated neighbours, the two weight matrices and the two bias rows whole, and writes
  rows 5000·t … of its result. A row of the result depends only on the same row of the two inputs, so what tile t
  writes is the tile-t restriction of ONE function of the whole arrays: row r of the result is the convolution of
  row r. The ten tiles cover every row (row r is in tile r / 5000), so after the last tile the result array IS that
  function of the arrays the region found.
-/
import proofs.«133278_j4423816315318_1_alg».proof.Proof.Gen.KernelIdeal.Frame
import proofs.«133278_j4423816315318_1_alg».proof.Proof.KBody
import Idealize.ShloMosaic.Lib.Pipeline.Value

set_option maxRecDepth 16384

noncomputable section

namespace Cert.KernelIdeal.KTile0

open Idealize.ShloMosaic Idealize.ShloMosaic.ValueIdx Idealize.ShloMosaic.TcCoe Idealize.SL.Sem RowRead GinSpec
open Cert.KernelIdeal Cert.KernelIdeal.Gen Cert.KernelIdeal.KBody
open Idealize.ShloMosaic.Pipeline (Dat)

/-- The hidden features after the first convolution, as one function of the whole arrays: row r is the convolution
    of row r of the features and row r of the aggregated neighbours. -/
def hidden (x a : FVec Ideal S50000x64 .f32) (W : FVec Ideal S64x128 .f32) (b : FVec Ideal S1x128 .f32)
    (W' : FVec Ideal S128x128 .f32) (b' : FVec Ideal S1x128 .f32) : FVec Ideal S50000x128 .f32 :=
  fun i => conv (mat W) (row0 b) (mat W') (row0 b') (rowOf x ⟨(i 0).val, (i 0).isLt⟩) (rowOf a ⟨(i 0).val, (i 0).isLt⟩)
    ⟨(i 1).val, (i 1).isLt⟩

theorem rowOf_hidden (x a : FVec Ideal S50000x64 .f32) (W : FVec Ideal S64x128 .f32) (b : FVec Ideal S1x128 .f32)
    (W' : FVec Ideal S128x128 .f32) (b' : FVec Ideal S1x128 .f32) (r : Fin 50000) :
    rowOf (hidden x a W b W' b') r = conv (mat W) (row0 b) (mat W') (row0 b') (rowOf x r) (rowOf a r) := rfl

variable (V : (c : Dev nD) → (b : Ref sig .tc) → Buf (Elt Ideal) ((c : Thread nD τ).loc b))

theorem hz : (![0, 0] : Fin 2 → Nat) = fun _ => 0 := funext fun a => by fin_cases a <;> rfl

/-- The printed block index maps over the grid: the row windows and the result window are at block (t, 0), the
    weights and biases at block (0, 0). -/
theorem idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem lt10 (t : Fin cfg0.N) : t.val < 10 := lt_of_lt_of_eq t.isLt N_0

/-- Row p of tile t is row 5000·t + p of the array. -/
def rowAt (t : Fin cfg0.N) (p : Fin 5000) : Fin 50000 := ⟨t.val * 5000 + p.val, by have := lt10 t; have := p.isLt; omega⟩

/-- The feature window's tile: row p of tile t is row 5000·t + p of the features. -/
theorem tile_x (c : Dev nD) (t : Fin cfg0.N) (p : Fin 5000) :
    rowOf (iblk0 V c 0 t) p = rowOf (V c main_arg0) (rowAt t p) := by
  obtain ⟨e0, e1, -⟩ := idx t
  funext k
  show V c main_arg0 (((cfg0.win 0).blk t).view.emb (ix2 p k)) = V c main_arg0 (ix2 (rowAt t p) k)
  refine congrArg (V c main_arg0) ?_
  funext a; apply Fin.ext
  match a with
  | ⟨0, _⟩ => show win0_0.index t (0 : Fin 2) * 5000 + 1 * p.val = t.val * 5000 + p.val; omega
  | ⟨1, _⟩ => show win0_0.index t (1 : Fin 2) * 64 + 1 * k.val = k.val; omega

/-- The aggregated neighbours' window's tile, the same rows. -/
theorem tile_a (c : Dev nD) (t : Fin cfg0.N) (p : Fin 5000) :
    rowOf (iblk0 V c 1 t) p = rowOf (V c main_v7) (rowAt t p) := by
  obtain ⟨-, -, e0, e1, -⟩ := idx t
  funext k
  show V c main_v7 (((cfg0.win 1).blk t).view.emb (ix2 p k)) = V c main_v7 (ix2 (rowAt t p) k)
  refine congrArg (V c main_v7) ?_
  funext a; apply Fin.ext
  match a with
  | ⟨0, _⟩ => show win0_1.index t (0 : Fin 2) * 5000 + 1 * p.val = t.val * 5000 + p.val; omega
  | ⟨1, _⟩ => show win0_1.index t (1 : Fin 2) * 64 + 1 * k.val = k.val; omega

/-- The first weight matrix is read whole at every tile. -/
theorem tile_W (c : Dev nD) (t : Fin cfg0.N) : mat (iblk0 V c 2 t) = mat (V c main_arg2) := by
  obtain ⟨-, -, -, -, e0, e1, -⟩ := idx t
  funext i j
  show V c main_arg2 (((cfg0.win 2).blk t).view.emb (ix2 i j)) = V c main_arg2 (ix2 i j)
  refine congrArg (V c main_arg2) ?_
  funext a; apply Fin.ext
  match a with
  | ⟨0, _⟩ => show win0_2.index t (0 : Fin 2) * 64 + 1 * i.val = i.val; omega
  | ⟨1, _⟩ => show win0_2.index t (1 : Fin 2) * 128 + 1 * j.val = j.val; omega

/-- The first bias row, whole. -/
theorem tile_b (c : Dev nD) (t : Fin cfg0.N) : row0 (iblk0 V c 3 t) = row0 (V c main_v8) := by
  obtain ⟨-, -, -, -, -, -, e0, e1, -⟩ := idx t
  funext j
  show V c main_v8 (((cfg0.win 3).blk t).view.emb (ix2 0 j)) = V c main_v8 (ix2 0 j)
  refine congrArg (V c main_v8) ?_
  funext a; apply Fin.ext
  match a with
  | ⟨0, _⟩ => show win0_3.index t (0 : Fin 2) * 1 + 1 * 0 = 0; omega
  | ⟨1, _⟩ => show win0_3.index t (1 : Fin 2) * 128 + 1 * j.val = j.val; omega

/-- The second weight matrix, whole. -/
theorem tile_W' (c : Dev nD) (t : Fin cfg0.N) : mat (iblk0 V c 4 t) = mat (V c main_arg4) := by
  obtain ⟨-, -, -, -, -, -, -, -, e0, e1, -⟩ := idx t
  funext i j
  show V c main_arg4 (((cfg0.win 4).blk t).view.emb (ix2 i j)) = V c main_arg4 (ix2 i j)
  refine congrArg (V c main_arg4) ?_
  funext a; apply Fin.ext
  match a with
  | ⟨0, _⟩ => show win0_4.index t (0 : Fin 2) * 128 + 1 * i.val = i.val; omega
  | ⟨1, _⟩ => show win0_4.index t (1 : Fin 2) * 128 + 1 * j.val = j.val; omega

/-- The second bias row, whole. -/
theorem tile_b' (c : Dev nD) (t : Fin cfg0.N) : row0 (iblk0 V c 5 t) = row0 (V c main_v9) := by
  obtain ⟨-, -, -, -, -, -, -, -, -, -, e0, e1, -⟩ := idx t
  funext j
  show V c main_v9 (((cfg0.win 5).blk t).view.emb (ix2 0 j)) = V c main_v9 (ix2 0 j)
  refine congrArg (V c main_v9) ?_
  funext a; apply Fin.ext
  match a with
  | ⟨0, _⟩ => show win0_5.index t (0 : Fin 2) * 1 + 1 * 0 = 0; omega
  | ⟨1, _⟩ => show win0_5.index t (1 : Fin 2) * 128 + 1 * j.val = j.val; omega

/-- The result window's tile: row p of tile t sits at row 5000·t + p of the result array. -/
theorem emb_out (t : Fin cfg0.N) (p : Fin 5000) (q : Fin 128) :
    ((cfg0.win 6).blk t).view.emb (ix2 p q) = ix2 (rowAt t p) q := by
  obtain ⟨-, -, -, -, -, -, -, -, -, -, -, -, e0, e1⟩ := idx t
  funext a; apply Fin.ext
  match a with
  | ⟨0, _⟩ => show win0_6.index t (0 : Fin 2) * 5000 + 1 * p.val = t.val * 5000 + p.val; omega
  | ⟨1, _⟩ => show win0_6.index t (1 : Fin 2) * 128 + 1 * q.val = q.val; omega

/-- WHAT TILE t WRITES BACK is the tile-t restriction of `hidden` of the arrays the region found: the body's result
    at row p is the convolution of row p of its two row tiles, which are rows 5000·t + p of the arrays. -/
theorem flushed_eq (c : Dev nD) (t : Fin cfg0.N) :
    (dat0 V c).flushed 6 t = ((cfg0.win 6).blk t).view.read (Elt Ideal)
      (hidden (V c main_arg0) (V c main_v7) (V c main_arg2) (V c main_v8) (V c main_arg4) (V c main_v9)) := by
  show (cfg0.win 6).cut (grid0.coords t) ((dat0 V c).after 6 t) = _
  rw [after0_6]
  unfold out0_6
  rw [View.canon_unit_zero hz]
  simp only [View.ld_unit_zero (S := S5000x64) hz, View.ld_unit_zero (S := S64x128) hz, View.ld_unit_zero (S := S1x128) hz,
    View.ld_unit_zero (S := S128x128) hz]
  funext j
  obtain ⟨p, q, rfl⟩ : ∃ (p : Fin 5000) (q : Fin 128), j = ix2 p q := ⟨j 0, j 1, eq_ix2 j⟩
  show rowOf (k0_pay1 (F := Ideal) (iblk0 V c 0 t) (iblk0 V c 1 t) (iblk0 V c 2 t) (iblk0 V c 3 t) (iblk0 V c 4 t) (iblk0 V c 5 t)) p q
    = hidden (V c main_arg0) (V c main_v7) (V c main_arg2) (V c main_v8) (V c main_arg4) (V c main_v9)
        (((cfg0.win 6).blk t).view.emb (ix2 p q))
  rw [emb_out t p q]
  refine (congrFun (rowOf_pay0 (iblk0 V c 0 t) (iblk0 V c 1 t) (iblk0 V c 2 t) (iblk0 V c 3 t) (iblk0 V c 4 t) (iblk0 V c 5 t) p) q).trans ?_
  rw [tile_x V c t p, tile_a V c t p, tile_W V c t, tile_b V c t, tile_W' V c t, tile_b' V c t]
  rfl

/-- An index of the result array is in tile t iff each coordinate is in the tile's range on its axis. -/
theorem mem_tile (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v10).slice (win0_6.rect t)).set ↔ _
  rw [View.set_slice_whole, Rect.mem_set_unit]
  exact Iff.rfl

/-- Every index of the result array is in the tile of its row: row r is in tile r / 5000. -/
theorem cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨-, -, -, -, -, -, -, -, -, -, -, -, e0, e1⟩ := idx ⟨(i 0).val / 5000, ht⟩
  refine ⟨⟨(i 0).val / 5000, ht⟩, flush0_6 _, ?_⟩
  rw [mem_tile]
  intro a
  match a with
  | ⟨0, _⟩ =>
    show win0_6.index ⟨(i 0).val / 5000, ht⟩ (0 : Fin 2) * 5000 ≤ (i 0).val
      ∧ (i 0).val < win0_6.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_6.index ⟨(i 0).val / 5000, ht⟩ (1 : Fin 2) * 128 ≤ (i 1).val
      ∧ (i 1).val < win0_6.index ⟨(i 0).val / 5000, ht⟩ (1 : Fin 2) * 128 + 128
    rw [e1]
    omega

/-- THE RESULT ARRAY of the first region after its last tile: `hidden` of the arrays the region found. -/
theorem final (c : Dev nD) : (dat0 V c).arrAt 6 cfg0.N
    = hidden (V c main_arg0) (V c main_v7) (V c main_arg2) (V c main_v8) (V c main_arg4) (V c main_v9) :=
  (dat0 V c).arrAt_eq_of_cover 6 _ (fun t _ => flushed_eq V c t) cover

end Cert.KernelIdeal.KTile0

end
-- ==== Proof.KTile1.lean ====
/-
  The second convolution's dense layers and the read-out, from tiles to the whole array.

  As in the first region the node axis is cut into ten tiles of 5000 rows; at tile t the kernel reads rows
  5000·t … 5000·t + 4999 of the hidden features and of their aggregated neighbours, three weight matrices and
  three bias rows whole, and writes the same rows of the one-column result. Row r of the result is the read-out
  layer of the second convolution of row r, a function of row r of the two inputs only; the ten tiles cover every
  row, so after the last tile the result array is that function of the arrays the region found.
-/
import proofs.«133278_j4423816315318_1_alg».proof.Proof.Gen.KernelIdeal.Frame
import proofs.«133278_j4423816315318_1_alg».proof.Proof.KBody
import Idealize.ShloMosaic.Lib.Pipeline.Value

set_option maxRecDepth 16384

noncomputable section

namespace Cert.KernelIdeal.KTile1

open Idealize.ShloMosaic Idealize.ShloMosaic.ValueIdx Idealize.ShloMosaic.TcCoe Idealize.SL.Sem RowRead GinSpec
open Cert.KernelIdeal Cert.KernelIdeal.Gen Cert.KernelIdeal.KBody
open Idealize.ShloMosaic.Pipeline (Dat)

/-- The network's output as one function of the whole arrays: row r is the read-out layer of the second convolution
    of row r of the hidden features and row r of their aggregated neighbours. -/
def readout (h a : FVec Ideal S50000x128 .f32) (W : FVec Ideal S128x128 .f32) (b : FVec Ideal S1x128 .f32)
    (W' : FVec Ideal S128x128 .f32) (b' : FVec Ideal S1x128 .f32) (Wo : FVec Ideal S128x1 .f32) (bo : FVec Ideal S1x1 .f32) :
    FVec Ideal S50000x1 .f32 :=
  fun i => dense (mat Wo) (row0 bo) (conv (mat W) (row0 b) (mat W') (row0 b') (rowOf h ⟨(i 0).val, (i 0).isLt⟩)
    (rowOf a ⟨(i 0).val, (i 0).isLt⟩)) ⟨(i 1).val, (i 1).isLt⟩

theorem rowOf_readout (h a : FVec Ideal S50000x128 .f32) (W : FVec Ideal S128x128 .f32) (b : FVec Ideal S1x128 .f32)
    (W' : FVec Ideal S128x128 .f32) (b' : FVec Ideal S1x128 .f32) (Wo : FVec Ideal S128x1 .f32) (bo : FVec Ideal S1x1 .f32)
    (r : Fin 50000) :
    rowOf (readout h a W b W' b' Wo bo) r
      = dense (mat Wo) (row0 bo) (conv (mat W) (row0 b) (mat W') (row0 b') (rowOf h r) (rowOf a r)) := rfl

variable (V : (c : Dev nD) → (b : Ref sig .tc) → Buf (Elt Ideal) ((c : Thread nD τ).loc b))

theorem hz : (![0, 0] : Fin 2 → Nat) = fun _ => 0 := funext fun a => by fin_cases a <;> rfl

/-- The printed block index maps over the grid: the row windows and the result window are at block (t, 0), the
    weights and biases at block (0, 0). -/
theorem idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

theorem lt10 (t : Fin cfg1.N) : t.val < 10 := lt_of_lt_of_eq t.isLt N_1

/-- Row p of tile t is row 5000·t + p of the array. -/
def rowAt (t : Fin cfg1.N) (p : Fin 5000) : Fin 50000 := ⟨t.val * 5000 + p.val, by have := lt10 t; have := p.isLt; omega⟩

/-- The hidden features' window: row p of tile t is row 5000·t + p of the hidden features. -/
theorem tile_h (c : Dev nD) (t : Fin cfg1.N) (p : Fin 5000) :
    rowOf (iblk1 V c 0 t) p = rowOf (V c main_v10) (rowAt t p) := by
  obtain ⟨e0, e1, -⟩ := idx t
  funext k
  show V c main_v10 (((cfg1.win 0).blk t).view.emb (ix2 p k)) = V c main_v10 (ix2 (rowAt t p) k)
  refine congrArg (V c main_v10) ?_
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

/-- The aggregated neighbours' window, the same rows. -/
theorem tile_a (c : Dev nD) (t : Fin cfg1.N) (p : Fin 5000) :
    rowOf (iblk1 V c 1 t) p = rowOf (V c main_v14) (rowAt t p) := by
  obtain ⟨-, -, e0, e1, -⟩ := idx t
  funext k
  show V c main_v14 (((cfg1.win 1).blk t).view.emb (ix2 p k)) = V c main_v14 (ix2 (rowAt t p) k)
  refine congrArg (V c main_v14) ?_
  funext a; apply Fin.ext
  match a with
  | ⟨0, _⟩ => show win1_1.index t (0 : Fin 2) * 5000 + 1 * p.val = t.val * 5000 + p.val; omega
  | ⟨1, _⟩ => show win1_1.index t (1 : Fin 2) * 128 + 1 * k.val = k.val; omega

/-- The first weight matrix is read whole at every tile. -/
theorem tile_W (c : Dev nD) (t : Fin cfg1.N) : mat (iblk1 V c 2 t) = mat (V c main_arg6) := by
  obtain ⟨-, -, -, -, e0, e1, -⟩ := idx t
  funext i j
  show V c main_arg6 (((cfg1.win 2).blk t).view.emb (ix2 i j)) = V c main_arg6 (ix2 i j)
  refine congrArg (V c main_arg6) ?_
  funext a; apply Fin.ext
  match a with
  | ⟨0, _⟩ => show win1_2.index t (0 : Fin 2) * 128 + 1 * i.val = i.val; omega
  | ⟨1, _⟩ => show win1_2.index t (1 : Fin 2) * 128 + 1 * j.val = j.val; omega

/-- The first bias row, whole. -/
theorem tile_b (c : Dev nD) (t : Fin cfg1.N) : row0 (iblk1 V c 3 t) = row0 (V c main_v15) := by
  obtain ⟨-, -, -, -, -, -, e0, e1, -⟩ := idx t
  funext j
  show V c main_v15 (((cfg1.win 3).blk t).view.emb (ix2 0 j)) = V c main_v15 (ix2 0 j)
  refine congrArg (V c main_v15) ?_
  funext a; apply Fin.ext
  match a with
  | ⟨0, _⟩ => show win1_3.index t (0 : Fin 2) * 1 + 1 * 0 = 0; omega
  | ⟨1, _⟩ => show win1_3.index t (1 : Fin 2) * 128 + 1 * j.val = j.val; omega

/-- The second weight matrix, whole. -/
theorem tile_W' (c : Dev nD) (t : Fin cfg1.N) : mat (iblk1 V c 4 t) = mat (V c main_arg8) := by
  obtain ⟨-, -, -, -, -, -, -, -, e0, e1, -⟩ := idx t
  funext i j
  show V c main_arg8 (((cfg1.win 4).blk t).view.emb (ix2 i j)) = V c main_arg8 (ix2 i j)
  refine congrArg (V c main_arg8) ?_
  funext a; apply Fin.ext
  match a with
  | ⟨0, _⟩ => show win1_4.index t (0 : Fin 2) * 128 + 1 * i.val = i.val; omega
  | ⟨1, _⟩ => show win1_4.index t (1 : Fin 2) * 128 + 1 * j.val = j.val; omega

/-- The second bias row, whole. -/
theorem tile_b' (c : Dev nD) (t : Fin cfg1.N) : row0 (iblk1 V c 5 t) = row0 (V c main_v16) := by
  obtain ⟨-, -, -, -, -, -, -, -, -, -, e0, e1, -⟩ := idx t
  funext j
  show V c main_v16 (((cfg1.win 5).blk t).view.emb (ix2 0 j)) = V c main_v16 (ix2 0 j)
  refine congrArg (V c main_v16) ?_
  funext a; apply Fin.ext
  match a with
  | ⟨0, _⟩ => show win1_5.index t (0 : Fin 2) * 1 + 1 * 0 = 0; omega
  | ⟨1, _⟩ => show win1_5.index t (1 : Fin 2) * 128 + 1 * j.val = j.val; omega

/-- The read-out weights, one column, whole. -/
theorem tile_Wo (c : Dev nD) (t : Fin cfg1.N) : mat (iblk1 V c 6 t) = mat (V c main_arg10) := by
  obtain ⟨-, -, -, -, -, -, -, -, -, -, -, -, e0, e1, -⟩ := idx t
  funext i j
  show V c main_arg10 (((cfg1.win 6).blk t).view.emb (ix2 i j)) = V c main_arg10 (ix2 i j)
  refine congrArg (V c main_arg10) ?_
  funext a; apply Fin.ext
  match a with
  | ⟨0, _⟩ => show win1_6.index t (0 : Fin 2) * 128 + 1 * i.val = i.val; omega
  | ⟨1, _⟩ => show win1_6.index t (1 : Fin 2) * 1 + 1 * j.val = j.val; omega

/-- The read-out bias, one entry. -/
theorem tile_bo (c : Dev nD) (t : Fin cfg1.N) : row0 (iblk1 V c 7 t) = row0 (V c main_v17) := by
  obtain ⟨-, -, -, -, -, -, -, -, -, -, -, -, -, -, e0, e1, -⟩ := idx t
  funext j
  show V c main_v17 (((cfg1.win 7).blk t).view.emb (ix2 0 j)) = V c main_v17 (ix2 0 j)
  refine congrArg (V c main_v17) ?_
  funext a; apply Fin.ext
  match a with
  | ⟨0, _⟩ => show win1_7.index t (0 : Fin 2) * 1 + 1 * 0 = 0; omega
  | ⟨1, _⟩ => show win1_7.index t (1 : Fin 2) * 1 + 1 * j.val = j.val; omega

/-- The result window's tile: row p of tile t sits at row 5000·t + p of the result array. -/
theorem emb_out (t : Fin cfg1.N) (p : Fin 5000) (q : Fin 1) :
    ((cfg1.win 8).blk t).view.emb (ix2 p q) = ix2 (rowAt t p) q := by
  obtain ⟨-, -, -, -, -, -, -, -, -, -, -, -, -, -, -, -, e0, e1⟩ := idx t
  funext a; apply Fin.ext
  match a with
  | ⟨0, _⟩ => show win1_8.index t (0 : Fin 2) * 5000 + 1 * p.val = t.val * 5000 + p.val; omega
  | ⟨1, _⟩ => show win1_8.index t (1 : Fin 2) * 1 + 1 * q.val = q.val; omega

/-- WHAT TILE t WRITES BACK is the tile-t restriction of `readout` of the arrays the region found. -/
theorem flushed_eq (c : Dev nD) (t : Fin cfg1.N) :
    (dat1 V c).flushed 8 t = ((cfg1.win 8).blk t).view.read (Elt Ideal)
      (readout (V c main_v10) (V c main_v14) (V c main_arg6) (V c main_v15) (V c main_arg8) (V c main_v16) (V c main_arg10) (V c main_v17)) := by
  show (cfg1.win 8).cut (grid1.coords t) ((dat1 V c).after 8 t) = _
  rw [after1_8]
  unfold out1_8
  rw [View.canon_unit_zero hz]
  simp only [View.ld_unit_zero (S := S5000x128) hz, View.ld_unit_zero (S := S128x128) hz, View.ld_unit_zero (S := S1x128) hz,
    View.ld_unit_zero (S := S128x1) hz, View.ld_unit_zero (S := S1x1) hz]
  funext j
  obtain ⟨p, q, rfl⟩ : ∃ (p : Fin 5000) (q : Fin 1), j = ix2 p q := ⟨j 0, j 1, eq_ix2 j⟩
  show rowOf (k1_pay1 (F := Ideal) (iblk1 V c 0 t) (iblk1 V c 1 t) (iblk1 V c 2 t) (iblk1 V c 3 t) (iblk1 V c 4 t) (iblk1 V c 5 t)
      (iblk1 V c 6 t) (iblk1 V c 7 t)) p q
    = readout (V c main_v10) (V c main_v14) (V c main_arg6) (V c main_v15) (V c main_arg8) (V c main_v16) (V c main_arg10) (V c main_v17)
        (((cfg1.win 8).blk t).view.emb (ix2 p q))
  rw [emb_out t p q]
  refine (congrFun (rowOf_pay1 (iblk1 V c 0 t) (iblk1 V c 1 t) (iblk1 V c 2 t) (iblk1 V c 3 t) (iblk1 V c 4 t) (iblk1 V c 5 t)
    (iblk1 V c 6 t) (iblk1 V c 7 t) p) q).trans ?_
  rw [tile_h V c t p, tile_a V c t p, tile_W V c t, tile_b V c t, tile_W' V c t, tile_b' V c t, tile_Wo V c t, tile_bo V c t]
  rfl

/-- An index of the result array is in tile t iff each coordinate is in the tile's range on its axis. -/
theorem mem_tile (t : Fin cfg1.N) (i : S50000x1.Idx) :
    i ∈ ((cfg1.win 8).blk t).view.set ↔ ∀ a : Fin 2, win1_8.index t a * S5000x1.size a ≤ (i a).val
      ∧ (i a).val < win1_8.index t a * S5000x1.size a + S5000x1.size a := by
  show i ∈ ((View.whole main_v18).slice (win1_8.rect t)).set ↔ _
  rw [View.set_slice_whole, Rect.mem_set_unit]
  exact Iff.rfl

/-- Every index of the result array is in the tile of its row: row r is in tile r / 5000. -/
theorem cover (i : S50000x1.Idx) :
    ∃ t : Fin cfg1.N, (cfg1.win 8).flush t = true ∧ i ∈ ((cfg1.win 8).blk t).view.set := by
  have hi0 : (i 0).val < 50000 := (i 0).isLt
  have hi1 : (i 1).val < 1 := (i 1).isLt
  have hN : cfg1.N = 10 := N_1
  have ht : (i 0).val / 5000 < cfg1.N := by rw [hN]; omega
  obtain ⟨-, -, -, -, -, -, -, -, -, -, -, -, -, -, -, -, e0, e1⟩ := idx ⟨(i 0).val / 5000, ht⟩
  refine ⟨⟨(i 0).val / 5000, ht⟩, flush1_8 _, ?_⟩
  rw [mem_tile]
  intro a
  match a with
  | ⟨0, _⟩ =>
    show win1_8.index ⟨(i 0).val / 5000, ht⟩ (0 : Fin 2) * 5000 ≤ (i 0).val
      ∧ (i 0).val < win1_8.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win1_8.index ⟨(i 0).val / 5000, ht⟩ (1 : Fin 2) * 1 ≤ (i 1).val
      ∧ (i 1).val < win1_8.index ⟨(i 0).val / 5000, ht⟩ (1 : Fin 2) * 1 + 1
    rw [e1]
    omega

/-- THE RESULT ARRAY of the second region after its last tile: `readout` of the arrays the region found. -/
theorem final (c : Dev nD) : (dat1 V c).arrAt 8 cfg1.N
    = readout (V c main_v10) (V c main_v14) (V c main_arg6) (V c main_v15) (V c main_arg8) (V c main_v16) (V c main_arg10) (V c main_v17) :=
  (dat1 V c).arrAt_eq_of_cover 8 _ (fun t _ => flushed_eq V c t) cover

end Cert.KernelIdeal.KTile1

end
-- ==== Proof.KernelHost.lean ====
/- What each of the two pallas_calls FINDS in its arrays, as functions of the launch memory.

   Between the launch and the first call the program slices the edge list into its two rows
   (sources and targets), gathers the feature rows of the edge sources (an out-of-range source
   selects a fill value), scatter-adds the gathered rows at the edge targets into a zero matrix,
   and reshapes two bias vectors into one-row matrices.  Between the two calls it does the same
   with the first call's output in place of the features, and reshapes three more biases.  The
   aggregation (gather, select, scatter-add) is named here as ONE function of the feature matrix
   and the edge list, `agg1` / `agg2`, and is never opened: nothing below depends on what a
   gather or a scatter-add computes, only on which buffers each operation reads and writes.

   Each stretch of host operations is read from an ABSTRACT valuation of the buffers: the
   contents of a buffer after the stretch is the operations' composed term over the contents
   the stretch started from, and a buffer no operation of the stretch writes keeps its contents.
   The first call leaves its output array at what its write-backs fold to and every buffer that
   is not one of its arrays as entered. -/
import proofs.«133278_j4423816315318_1_alg».proof.Proof.Gen.KernelIdeal.Frame
import Idealize.ShloMosaic.Lib.StableHlo.Run
import Idealize.ShloMosaic.PureOps.Ideal

set_option maxRecDepth 16384

noncomputable section

namespace Cert.KernelIdeal.KValue

open Cert.KernelIdeal Cert.KernelIdeal.Gen Idealize.ShloMosaic Idealize.ShloMosaic.TcCoe Idealize.SL.Sem

/-- The edge list: two rows of 800000 node numbers, sources then targets. -/
abbrev EI := (⟨S2x800000, .i32⟩ : BufTy).Contents (Elt Ideal)

/-- The first aggregation: for every node the sum, over the edges that end at it, of the feature row of the
    edge's source (the fill value where a source is out of range), as the program's host operations compose it
    from the feature matrix `x` and the edge list `ei`. -/
def agg1 (x : FVec Ideal S50000x64 .f32) (ei : EI) : FVec Ideal S50000x64 .f32 :=
  Host.scatterAdd scatter_S50000x64_S800000x1_S800000x64_1_0_0_1 (broadcastInDim S50000x64 ![] bcast_S_S50000x64 (constant (F := Ideal) S_ .f32 0x00000000#32)) (broadcastInDim S800000x1 ![0] bcast_S800000_S800000x1_0 (shapeCast S800000 (extractStridedSlice S1x800000 ![1, 0] ei slices_S2x800000_S1x800000_1_0) shapeCasts_S1x800000_S800000)) (select (broadcastInDim S800000x64 ![0] bcast_S800000_S800000x64_0 (Host.reduce IntOp.andi (andi (cmpi .sge (broadcastInDim S800000x1 ![0] bcast_S800000_S800000x1_0 (select (cmpi .slt (shapeCast S800000 (extractStridedSlice S1x800000 ![0, 0] ei slices_S2x800000_S1x800000_0_0) shapeCasts_S1x800000_S800000) (broadcastInDim S800000 ![] bcast_S_S800000 (constantI S_ 32 0#32))) (addi (shapeCast S800000 (extractStridedSlice S1x800000 ![0, 0] ei slices_S2x800000_S1x800000_0_0) shapeCasts_S1x800000_S800000) (broadcastInDim S800000 ![] bcast_S_S800000 (constantI S_ 32 50000#32))) (shapeCast S800000 (extractStridedSlice S1x800000 ![0, 0] ei slices_S2x800000_S1x800000_0_0) shapeCasts_S1x800000_S800000))) (broadcastInDim S800000x1 ![] bcast_S_S800000x1 (constantI S_ 32 0#32))) (cmpi .sle (broadcastInDim S800000x1 ![0] bcast_S800000_S800000x1_0 (select (cmpi .slt (shapeCast S800000 (extractStridedSlice S1x800000 ![0, 0] ei slices_S2x800000_S1x800000_0_0) shapeCasts_S1x800000_S800000) (broadcastInDim S800000 ![] bcast_S_S800000 (constantI S_ 32 0#32))) (addi (shapeCast S800000 (extractStridedSlice S1x800000 ![0, 0] ei slices_S2x800000_S1x800000_0_0) shapeCasts_S1x800000_S800000) (broadcastInDim S800000 ![] bcast_S_S800000 (constantI S_ 32 50000#32))) (shapeCast S800000 (extractStridedSlice S1x800000 ![0, 0] ei slices_S2x800000_S1x800000_0_0) shapeCasts_S1x800000_S800000))) (broadcastInDim S800000x1 ![0, 1] bcast_S1x1_S800000x1_0_1 (broadcastInDim S1x1 ![1] bcast_S1_S1x1_1 (constantI S1 32 49999#32))))) (constantI S_ 1 1#1) reducesTo_S800000x1_S800000_d1 h_S_)) (Host.gather gather_S50000x64_S800000x1_S800000x64_1_0_n_n_0_1_164 x (broadcastInDim S800000x1 ![0] bcast_S800000_S800000x1_0 (select (cmpi .slt (shapeCast S800000 (extractStridedSlice S1x800000 ![0, 0] ei slices_S2x800000_S1x800000_0_0) shapeCasts_S1x800000_S800000) (broadcastInDim S800000 ![] bcast_S_S800000 (constantI S_ 32 0#32))) (addi (shapeCast S800000 (extractStridedSlice S1x800000 ![0, 0] ei slices_S2x800000_S1x800000_0_0) shapeCasts_S1x800000_S800000) (broadcastInDim S800000 ![] bcast_S_S800000 (constantI S_ 32 50000#32))) (shapeCast S800000 (extractStridedSlice S1x800000 ![0, 0] ei slices_S2x800000_S1x800000_0_0) shapeCasts_S1x800000_S800000)))) (broadcastInDim S800000x64 ![] bcast_S_S800000x64 (constant (F := Ideal) S_ .f32 0x7FC00000#32)))

/-- The second aggregation: the same operations over the first convolution's output `h`. -/
def agg2 (h : FVec Ideal S50000x128 .f32) (ei : EI) : FVec Ideal S50000x128 .f32 :=
  Host.scatterAdd scatter_S50000x128_S800000x1_S800000x128_1_0_0_1 (broadcastInDim S50000x128 ![] bcast_S_S50000x128 (constant (F := Ideal) S_ .f32 0x00000000#32)) (broadcastInDim S800000x1 ![0] bcast_S800000_S800000x1_0 (shapeCast S800000 (extractStridedSlice S1x800000 ![1, 0] ei slices_S2x800000_S1x800000_1_0) shapeCasts_S1x800000_S800000)) (select (broadcastInDim S800000x128 ![0] bcast_S800000_S800000x128_0 (Host.reduce IntOp.andi (andi (cmpi .sge (broadcastInDim S800000x1 ![0] bcast_S800000_S800000x1_0 (select (cmpi .slt (shapeCast S800000 (extractStridedSlice S1x800000 ![0, 0] ei slices_S2x800000_S1x800000_0_0) shapeCasts_S1x800000_S800000) (broadcastInDim S800000 ![] bcast_S_S800000 (constantI S_ 32 0#32))) (addi (shapeCast S800000 (extractStridedSlice S1x800000 ![0, 0] ei slices_S2x800000_S1x800000_0_0) shapeCasts_S1x800000_S800000) (broadcastInDim S800000 ![] bcast_S_S800000 (constantI S_ 32 50000#32))) (shapeCast S800000 (extractStridedSlice S1x800000 ![0, 0] ei slices_S2x800000_S1x800000_0_0) shapeCasts_S1x800000_S800000))) (broadcastInDim S800000x1 ![] bcast_S_S800000x1 (constantI S_ 32 0#32))) (cmpi .sle (broadcastInDim S800000x1 ![0] bcast_S800000_S800000x1_0 (select (cmpi .slt (shapeCast S800000 (extractStridedSlice S1x800000 ![0, 0] ei slices_S2x800000_S1x800000_0_0) shapeCasts_S1x800000_S800000) (broadcastInDim S800000 ![] bcast_S_S800000 (constantI S_ 32 0#32))) (addi (shapeCast S800000 (extractStridedSlice S1x800000 ![0, 0] ei slices_S2x800000_S1x800000_0_0) shapeCasts_S1x800000_S800000) (broadcastInDim S800000 ![] bcast_S_S800000 (constantI S_ 32 50000#32))) (shapeCast S800000 (extractStridedSlice S1x800000 ![0, 0] ei slices_S2x800000_S1x800000_0_0) shapeCasts_S1x800000_S800000))) (broadcastInDim S800000x1 ![0, 1] bcast_S1x1_S800000x1_0_1 (broadcastInDim S1x1 ![1] bcast_S1_S1x1_1 (constantI S1 32 49999#32))))) (constantI S_ 1 1#1) reducesTo_S800000x1_S800000_d1 h_S_)) (Host.gather gather_S50000x128_S800000x1_S800000x128_1_0_n_n_0_1_1128 h (broadcastInDim S800000x1 ![0] bcast_S800000_S800000x1_0 (select (cmpi .slt (shapeCast S800000 (extractStridedSlice S1x800000 ![0, 0] ei slices_S2x800000_S1x800000_0_0) shapeCasts_S1x800000_S800000) (broadcastInDim S800000 ![] bcast_S_S800000 (constantI S_ 32 0#32))) (addi (shapeCast S800000 (extractStridedSlice S1x800000 ![0, 0] ei slices_S2x800000_S1x800000_0_0) shapeCasts_S1x800000_S800000) (broadcastInDim S800000 ![] bcast_S_S800000 (constantI S_ 32 50000#32))) (shapeCast S800000 (extractStridedSlice S1x800000 ![0, 0] ei slices_S2x800000_S1x800000_0_0) shapeCasts_S1x800000_S800000)))) (broadcastInDim S800000x128 ![] bcast_S_S800000x128 (constant (F := Ideal) S_ .f32 0x7FC00000#32)))

/-- The edge sources: row 0 of the edge list as a vector. -/
def srcOf (ei : EI) : IVec S800000 32 := (shapeCast S800000 (extractStridedSlice S1x800000 ![0, 0] ei slices_S2x800000_S1x800000_0_0) shapeCasts_S1x800000_S800000)
/-- The edge targets: row 1 of the edge list as a vector. -/
def dstOf (ei : EI) : IVec S800000 32 := (shapeCast S800000 (extractStridedSlice S1x800000 ![1, 0] ei slices_S2x800000_S1x800000_1_0) shapeCasts_S1x800000_S800000)

/-- The first aggregation over the two rows of the edge list given separately. -/
def aggOver1 (x : FVec Ideal S50000x64 .f32) (s d : IVec S800000 32) : FVec Ideal S50000x64 .f32 :=
  Host.scatterAdd scatter_S50000x64_S800000x1_S800000x64_1_0_0_1 (broadcastInDim S50000x64 ![] bcast_S_S50000x64 (constant (F := Ideal) S_ .f32 0x00000000#32)) (broadcastInDim S800000x1 ![0] bcast_S800000_S800000x1_0 d) (select (broadcastInDim S800000x64 ![0] bcast_S800000_S800000x64_0 (Host.reduce IntOp.andi (andi (cmpi .sge (broadcastInDim S800000x1 ![0] bcast_S800000_S800000x1_0 (select (cmpi .slt s (broadcastInDim S800000 ![] bcast_S_S800000 (constantI S_ 32 0#32))) (addi s (broadcastInDim S800000 ![] bcast_S_S800000 (constantI S_ 32 50000#32))) s)) (broadcastInDim S800000x1 ![] bcast_S_S800000x1 (constantI S_ 32 0#32))) (cmpi .sle (broadcastInDim S800000x1 ![0] bcast_S800000_S800000x1_0 (select (cmpi .slt s (broadcastInDim S800000 ![] bcast_S_S800000 (constantI S_ 32 0#32))) (addi s (broadcastInDim S800000 ![] bcast_S_S800000 (constantI S_ 32 50000#32))) s)) (broadcastInDim S800000x1 ![0, 1] bcast_S1x1_S800000x1_0_1 (broadcastInDim S1x1 ![1] bcast_S1_S1x1_1 (constantI S1 32 49999#32))))) (constantI S_ 1 1#1) reducesTo_S800000x1_S800000_d1 h_S_)) (Host.gather gather_S50000x64_S800000x1_S800000x64_1_0_n_n_0_1_164 x (broadcastInDim S800000x1 ![0] bcast_S800000_S800000x1_0 (select (cmpi .slt s (broadcastInDim S800000 ![] bcast_S_S800000 (constantI S_ 32 0#32))) (addi s (broadcastInDim S800000 ![] bcast_S_S800000 (constantI S_ 32 50000#32))) s))) (broadcastInDim S800000x64 ![] bcast_S_S800000x64 (constant (F := Ideal) S_ .f32 0x7FC00000#32)))
/-- The second aggregation over the two rows of the edge list given separately. -/
def aggOver2 (h : FVec Ideal S50000x128 .f32) (s d : IVec S800000 32) : FVec Ideal S50000x128 .f32 :=
  Host.scatterAdd scatter_S50000x128_S800000x1_S800000x128_1_0_0_1 (broadcastInDim S50000x128 ![] bcast_S_S50000x128 (constant (F := Ideal) S_ .f32 0x00000000#32)) (broadcastInDim S800000x1 ![0] bcast_S800000_S800000x1_0 d) (select (broadcastInDim S800000x128 ![0] bcast_S800000_S800000x128_0 (Host.reduce IntOp.andi (andi (cmpi .sge (broadcastInDim S800000x1 ![0] bcast_S800000_S800000x1_0 (select (cmpi .slt s (broadcastInDim S800000 ![] bcast_S_S800000 (constantI S_ 32 0#32))) (addi s (broadcastInDim S800000 ![] bcast_S_S800000 (constantI S_ 32 50000#32))) s)) (broadcastInDim S800000x1 ![] bcast_S_S800000x1 (constantI S_ 32 0#32))) (cmpi .sle (broadcastInDim S800000x1 ![0] bcast_S800000_S800000x1_0 (select (cmpi .slt s (broadcastInDim S800000 ![] bcast_S_S800000 (constantI S_ 32 0#32))) (addi s (broadcastInDim S800000 ![] bcast_S_S800000 (constantI S_ 32 50000#32))) s)) (broadcastInDim S800000x1 ![0, 1] bcast_S1x1_S800000x1_0_1 (broadcastInDim S1x1 ![1] bcast_S1_S1x1_1 (constantI S1 32 49999#32))))) (constantI S_ 1 1#1) reducesTo_S800000x1_S800000_d1 h_S_)) (Host.gather gather_S50000x128_S800000x1_S800000x128_1_0_n_n_0_1_1128 h (broadcastInDim S800000x1 ![0] bcast_S800000_S800000x1_0 (select (cmpi .slt s (broadcastInDim S800000 ![] bcast_S_S800000 (constantI S_ 32 0#32))) (addi s (broadcastInDim S800000 ![] bcast_S_S800000 (constantI S_ 32 50000#32))) s))) (broadcastInDim S800000x128 ![] bcast_S_S800000x128 (constant (F := Ideal) S_ .f32 0x7FC00000#32)))

theorem agg1_eq (x : FVec Ideal S50000x64 .f32) (ei : EI) : aggOver1 x (srcOf ei) (dstOf ei) = agg1 x ei := rfl
theorem agg2_eq (h : FVec Ideal S50000x128 .f32) (ei : EI) : aggOver2 h (srcOf ei) (dstOf ei) = agg2 h ei := rfl

/-- Contents moved to a typed reference's buffer type and back are unchanged. -/
theorem ofBuf_toBuf {sg : RefSig} {Val : EltTy → Type} {T : BufTy} (x : StableHlo.TRef sg T) (v : T.Contents Val) :
    x.ofBuf (x.toBuf v) = v := by
  obtain ⟨r, h, h2, h3⟩ := x
  subst h
  rfl

-- the gather, the scatter-add and the mask's reduction stay closed: they are compared as written, never computed
attribute [local irreducible] Host.gather Host.scatterAdd Host.reduce

/-! ## The stretches before the first call, from any contents `W` -/

section Before
variable (W : Valuation τ sig (Elt Ideal))

theorem pre_main_arg0 : StableHlo.after hostOps0_2 (StableHlo.after hostOps0_1 (StableHlo.after hostOps0 W)) (Proc.devRef .tc main_arg0) = W (Proc.devRef .tc main_arg0) := by (after_results_simp; first | done | rfl)
theorem pre_main_arg2 : StableHlo.after hostOps0_2 (StableHlo.after hostOps0_1 (StableHlo.after hostOps0 W)) (Proc.devRef .tc main_arg2) = W (Proc.devRef .tc main_arg2) := by (after_results_simp; first | done | rfl)
theorem pre_main_arg4 : StableHlo.after hostOps0_2 (StableHlo.after hostOps0_1 (StableHlo.after hostOps0 W)) (Proc.devRef .tc main_arg4) = W (Proc.devRef .tc main_arg4) := by (after_results_simp; first | done | rfl)
theorem pre_main_arg6 : StableHlo.after hostOps0_2 (StableHlo.after hostOps0_1 (StableHlo.after hostOps0 W)) (Proc.devRef .tc main_arg6) = W (Proc.devRef .tc main_arg6) := by (after_results_simp; first | done | rfl)
theorem pre_main_arg7 : StableHlo.after hostOps0_2 (StableHlo.after hostOps0_1 (StableHlo.after hostOps0 W)) (Proc.devRef .tc main_arg7) = W (Proc.devRef .tc main_arg7) := by (after_results_simp; first | done | rfl)
theorem pre_main_arg8 : StableHlo.after hostOps0_2 (StableHlo.after hostOps0_1 (StableHlo.after hostOps0 W)) (Proc.devRef .tc main_arg8) = W (Proc.devRef .tc main_arg8) := by (after_results_simp; first | done | rfl)
theorem pre_main_arg9 : StableHlo.after hostOps0_2 (StableHlo.after hostOps0_1 (StableHlo.after hostOps0 W)) (Proc.devRef .tc main_arg9) = W (Proc.devRef .tc main_arg9) := by (after_results_simp; first | done | rfl)
theorem pre_main_arg10 : StableHlo.after hostOps0_2 (StableHlo.after hostOps0_1 (StableHlo.after hostOps0 W)) (Proc.devRef .tc main_arg10) = W (Proc.devRef .tc main_arg10) := by (after_results_simp; first | done | rfl)
theorem pre_main_arg11 : StableHlo.after hostOps0_2 (StableHlo.after hostOps0_1 (StableHlo.after hostOps0 W)) (Proc.devRef .tc main_arg11) = W (Proc.devRef .tc main_arg11) := by (after_results_simp; first | done | rfl)
theorem pre_src : StableHlo.after hostOps0_2 (StableHlo.after hostOps0_1 (StableHlo.after hostOps0 W)) (Proc.devRef .tc main_v1) = srcOf (W (Proc.devRef .tc main_arg1)) := by (after_results_simp; first | done | rfl)
theorem pre_dst : StableHlo.after hostOps0_2 (StableHlo.after hostOps0_1 (StableHlo.after hostOps0 W)) (Proc.devRef .tc main_v3) = dstOf (W (Proc.devRef .tc main_arg1)) := by (after_results_simp; first | done | rfl)
theorem pre_b1 : StableHlo.after hostOps0_2 (StableHlo.after hostOps0_1 (StableHlo.after hostOps0 W)) (Proc.devRef .tc main_v8) = shapeCast S1x128 (W (Proc.devRef .tc main_arg3)) shapeCasts_S128_S1x128 := by (after_results_simp; first | done | rfl)
theorem pre_b2 : StableHlo.after hostOps0_2 (StableHlo.after hostOps0_1 (StableHlo.after hostOps0 W)) (Proc.devRef .tc main_v9) = shapeCast S1x128 (W (Proc.devRef .tc main_arg5)) shapeCasts_S128_S1x128 := by (after_results_simp; first | done | rfl)
set_option maxHeartbeats 1000000 in
theorem pre_agg : StableHlo.after hostOps0_2 (StableHlo.after hostOps0_1 (StableHlo.after hostOps0 W)) (Proc.devRef .tc main_v7) = aggOver1 (W (Proc.devRef .tc main_arg0)) (srcOf (W (Proc.devRef .tc main_arg1))) (dstOf (W (Proc.devRef .tc main_arg1))) := by
  after_results_simp
  simp only [ofBuf_toBuf]
  rfl

end Before

/-! ## The stretches between the two calls, from any contents `W` -/

section Between
variable (W : Valuation τ sig (Elt Ideal))

theorem mid_main_v10 : StableHlo.after hostOps1_1 (StableHlo.after hostOps1 W) (Proc.devRef .tc main_v10) = W (Proc.devRef .tc main_v10) := by (after_results_simp; first | done | rfl)
theorem mid_main_arg6 : StableHlo.after hostOps1_1 (StableHlo.after hostOps1 W) (Proc.devRef .tc main_arg6) = W (Proc.devRef .tc main_arg6) := by (after_results_simp; first | done | rfl)
theorem mid_main_arg8 : StableHlo.after hostOps1_1 (StableHlo.after hostOps1 W) (Proc.devRef .tc main_arg8) = W (Proc.devRef .tc main_arg8) := by (after_results_simp; first | done | rfl)
theorem mid_main_arg10 : StableHlo.after hostOps1_1 (StableHlo.after hostOps1 W) (Proc.devRef .tc main_arg10) = W (Proc.devRef .tc main_arg10) := by (after_results_simp; first | done | rfl)
theorem mid_b3 : StableHlo.after hostOps1_1 (StableHlo.after hostOps1 W) (Proc.devRef .tc main_v15) = shapeCast S1x128 (W (Proc.devRef .tc main_arg7)) shapeCasts_S128_S1x128 := by (after_results_simp; first | done | rfl)
theorem mid_b4 : StableHlo.after hostOps1_1 (StableHlo.after hostOps1 W) (Proc.devRef .tc main_v16) = shapeCast S1x128 (W (Proc.devRef .tc main_arg9)) shapeCasts_S128_S1x128 := by (after_results_simp; first | done | rfl)
theorem mid_bout : StableHlo.after hostOps1_1 (StableHlo.after hostOps1 W) (Proc.devRef .tc main_v17) = shapeCast S1x1 (W (Proc.devRef .tc main_arg11)) shapeCasts_S1_S1x1 := by (after_results_simp; first | done | rfl)
set_option maxHeartbeats 1000000 in
theorem mid_agg : StableHlo.after hostOps1_1 (StableHlo.after hostOps1 W) (Proc.devRef .tc main_v14) = aggOver2 (W (Proc.devRef .tc main_v10)) (W (Proc.devRef .tc main_v1)) (W (Proc.devRef .tc main_v3)) := by
  after_results_simp
  simp only [ofBuf_toBuf]
  rfl

end Between

variable (m : (ℓ : Loc nD τ sig) → Buf (Elt Ideal) ℓ) (ρ : Dev nD → PrngReg) (c : Dev nD)

/-! ## What the first call finds -/

theorem V3_x : V3 (F := Ideal) m ρ c main_arg0 = (m ((c.tc : Thread nD τ).loc main_arg0)) := pre_main_arg0 (W0 m ρ c)
theorem V3_agg : V3 (F := Ideal) m ρ c main_v7 = agg1 (m ((c.tc : Thread nD τ).loc main_arg0)) (m ((c.tc : Thread nD τ).loc main_arg1)) :=
  (pre_agg (W0 m ρ c)).trans (agg1_eq _ _)
theorem V3_W1 : V3 (F := Ideal) m ρ c main_arg2 = (m ((c.tc : Thread nD τ).loc main_arg2)) := pre_main_arg2 (W0 m ρ c)
theorem V3_b1 : V3 (F := Ideal) m ρ c main_v8 = shapeCast S1x128 (m ((c.tc : Thread nD τ).loc main_arg3)) shapeCasts_S128_S1x128 := pre_b1 (W0 m ρ c)
theorem V3_W2 : V3 (F := Ideal) m ρ c main_arg4 = (m ((c.tc : Thread nD τ).loc main_arg4)) := pre_main_arg4 (W0 m ρ c)
theorem V3_b2 : V3 (F := Ideal) m ρ c main_v9 = shapeCast S1x128 (m ((c.tc : Thread nD τ).loc main_arg5)) shapeCasts_S128_S1x128 := pre_b2 (W0 m ρ c)

/-! ## At the first call's exit: its output array at what the write-backs fold to, every buffer that is not one of
    its arrays as it was at the call's entry -/

theorem W4_h : W4 (F := Ideal) m ρ c (Proc.devRef .tc main_v10) = (dat0 (F := Ideal) (V3 m ρ) c).arrAt 6 cfg0.N := W4_arr m ρ c 6
theorem W4_src : W4 (F := Ideal) m ρ c (Proc.devRef .tc main_v1) = srcOf (m ((c.tc : Thread nD τ).loc main_arg1)) :=
  (W4_of_ne m ρ c main_v1 (by decide)).trans (pre_src (W0 m ρ c))
theorem W4_dst : W4 (F := Ideal) m ρ c (Proc.devRef .tc main_v3) = dstOf (m ((c.tc : Thread nD τ).loc main_arg1)) :=
  (W4_of_ne m ρ c main_v3 (by decide)).trans (pre_dst (W0 m ρ c))
theorem W4_main_arg6 : W4 (F := Ideal) m ρ c (Proc.devRef .tc main_arg6) = (m ((c.tc : Thread nD τ).loc main_arg6)) :=
  (W4_of_ne m ρ c main_arg6 (by decide)).trans (pre_main_arg6 (W0 m ρ c))
theorem W4_main_arg7 : W4 (F := Ideal) m ρ c (Proc.devRef .tc main_arg7) = (m ((c.tc : Thread nD τ).loc main_arg7)) :=
  (W4_of_ne m ρ c main_arg7 (by decide)).trans (pre_main_arg7 (W0 m ρ c))
theorem W4_main_arg8 : W4 (F := Ideal) m ρ c (Proc.devRef .tc main_arg8) = (m ((c.tc : Thread nD τ).loc main_arg8)) :=
  (W4_of_ne m ρ c main_arg8 (by decide)).trans (pre_main_arg8 (W0 m ρ c))
theorem W4_main_arg9 : W4 (F := Ideal) m ρ c (Proc.devRef .tc main_arg9) = (m ((c.tc : Thread nD τ).loc main_arg9)) :=
  (W4_of_ne m ρ c main_arg9 (by decide)).trans (pre_main_arg9 (W0 m ρ c))
theorem W4_main_arg10 : W4 (F := Ideal) m ρ c (Proc.devRef .tc main_arg10) = (m ((c.tc : Thread nD τ).loc main_arg10)) :=
  (W4_of_ne m ρ c main_arg10 (by decide)).trans (pre_main_arg10 (W0 m ρ c))
theorem W4_main_arg11 : W4 (F := Ideal) m ρ c (Proc.devRef .tc main_arg11) = (m ((c.tc : Thread nD τ).loc main_arg11)) :=
  (W4_of_ne m ρ c main_arg11 (by decide)).trans (pre_main_arg11 (W0 m ρ c))

/-! ## What the second call finds -/

theorem V6_h : V6 (F := Ideal) m ρ c main_v10 = (dat0 (F := Ideal) (V3 m ρ) c).arrAt 6 cfg0.N :=
  (mid_main_v10 (W4 m ρ c)).trans (W4_h m ρ c)
theorem V6_agg : V6 (F := Ideal) m ρ c main_v14 = agg2 ((dat0 (F := Ideal) (V3 m ρ) c).arrAt 6 cfg0.N) (m ((c.tc : Thread nD τ).loc main_arg1)) := by
  refine (mid_agg (W4 m ρ c)).trans ?_
  rw [W4_h m ρ c, W4_src m ρ c, W4_dst m ρ c]
  exact agg2_eq _ _
theorem V6_W3 : V6 (F := Ideal) m ρ c main_arg6 = (m ((c.tc : Thread nD τ).loc main_arg6)) := (mid_main_arg6 (W4 m ρ c)).trans (W4_main_arg6 m ρ c)
theorem V6_b3 : V6 (F := Ideal) m ρ c main_v15 = shapeCast S1x128 (m ((c.tc : Thread nD τ).loc main_arg7)) shapeCasts_S128_S1x128 := by
  refine (mid_b3 (W4 m ρ c)).trans ?_
  rw [W4_main_arg7 m ρ c]
theorem V6_W4 : V6 (F := Ideal) m ρ c main_arg8 = (m ((c.tc : Thread nD τ).loc main_arg8)) := (mid_main_arg8 (W4 m ρ c)).trans (W4_main_arg8 m ρ c)
theorem V6_b4 : V6 (F := Ideal) m ρ c main_v16 = shapeCast S1x128 (m ((c.tc : Thread nD τ).loc main_arg9)) shapeCasts_S128_S1x128 := by
  refine (mid_b4 (W4 m ρ c)).trans ?_
  rw [W4_main_arg9 m ρ c]
theorem V6_Wout : V6 (F := Ideal) m ρ c main_arg10 = (m ((c.tc : Thread nD τ).loc main_arg10)) := (mid_main_arg10 (W4 m ρ c)).trans (W4_main_arg10 m ρ c)
theorem V6_bout : V6 (F := Ideal) m ρ c main_v17 = shapeCast S1x1 (m ((c.tc : Thread nD τ).loc main_arg11)) shapeCasts_S1_S1x1 := by
  refine (mid_bout (W4 m ρ c)).trans ?_
  rw [W4_main_arg11 m ρ c]

end Cert.KernelIdeal.KValue

end
-- ==== Proof.RefRun.lean ====
/-
  The reference program's @main as one straight line of host operations.

  @main computes a two-layer graph network with sum aggregation on 50000 nodes and 800000 edges. Its text calls two
  outlined functions: the row look-up (take rows of a matrix at a list of indices; an index below zero counts from the
  end, and a row whose index is out of range is filled with a not-a-number constant), which in turn calls the
  three-way choice that wraps the negative indices. Here every call is replaced by the callee's operations, written
  over the buffers that call owns, so that @main is a list of 92 operations and nothing else. The list is cut into
  four stretches by what they compute:

    A  the source and destination rows of the edge list, the look-up of the features at the sources, and the
       scatter-add of the looked-up rows at the destinations: the first aggregation;
    B  the first convolution's two affine layers, each followed by the rectifier;
    C  the look-up and the scatter-add again, on the hidden features: the second aggregation;
    D  the second convolution's two affine layers with their rectifiers, and the affine read-out.

  The run theorem says that every weakly fair execution of @main ends with every buffer holding what the fold of the
  list over the launch contents gives.
-/
import proofs.«133278_j4423816315318_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Stretch A, 31 operations: rows 0 and 1 of the edge list as vectors (sources, destinations); the look-up of the
    node features at the sources (23 operations: wrap the negative indices, make the indices a column, test them
    against the range, gather the rows, fill the rows of out-of-range indices); the zero matrix; the destinations as
    a column; the scatter-add of the looked-up rows into the zero matrix at the destinations. -/
abbrev opsA : List (HloOp τ sig (Elt F)) :=
  [ unary main_arg1 main_v0 (extractStridedSlice S1x800000 ![0, 0] · slices_S2x800000_S1x800000_0_0),
    reshape main_v0 main_v1 rfl shapeCasts_S1x800000_S800000,
    unary main_arg1 main_v2 (extractStridedSlice S1x800000 ![1, 0] · slices_S2x800000_S1x800000_1_0),
    reshape main_v2 main_v3 rfl shapeCasts_S1x800000_S800000,
    TRef.nullary main_call0.c (constantI S_ 32 0#32),
    TRef.unary main_call0.c main_call0.v0 (broadcastInDim S800000 ![] bcast_S_S800000),
    TRef.binary (.of main_v1) main_call0.v0 main_call0.v1 (cmpi .slt),
    TRef.nullary main_call0.c_0 (constantI S_ 32 50000#32),
    TRef.unary main_call0.c_0 main_call0.v2 (broadcastInDim S800000 ![] bcast_S_S800000),
    TRef.binary (.of main_v1) main_call0.v2 main_call0.v3 addi,
    TRef.ternary main_call0.v1 main_call0.v3 (.of main_v1) main_call0.call0.v0 select,
    TRef.unary main_call0.call0.v0 main_call0.v5 (broadcastInDim S800000x1 ![0] bcast_S800000_S800000x1_0),
    TRef.nullary main_call0.c_1 (constantI S1 32 49999#32),
    TRef.nullary main_call0.c_2 (constantI S_ 32 0#32),
    TRef.unary main_call0.c_2 main_call0.v6 (broadcastInDim S800000x1 ![] bcast_S_S800000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S800000x1 ![0, 1] bcast_S1x1_S800000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S800000x1_S800000_d1 h_S_),
    TRef.binary (.of main_arg0) main_call0.v5 main_call0.v13 (fun x i => Host.gather gather_S50000x64_S800000x1_S800000x64_1_0_n_n_0_1_164 x i),
    TRef.unary main_call0.v12 main_call0.v14 (broadcastInDim S800000x64 ![0] bcast_S800000_S800000x64_0),
    TRef.nullary main_call0.cst (constant S_ .f32 0x7FC00000#32),
    TRef.unary main_call0.cst main_call0.v15 (broadcastInDim S800000x64 ![] bcast_S_S800000x64),
    TRef.ternary main_call0.v14 main_call0.v13 main_call0.v15 main_call0.v16 select,
    nullary main_cst (constant S_ .f32 0x00000000#32),
    unary main_cst main_v5 (broadcastInDim S50000x64 ![] bcast_S_S50000x64),
    unary main_v3 main_v6 (broadcastInDim S800000x1 ![0] bcast_S800000_S800000x1_0),
    ternary main_v5 main_v6 main_v4 main_v7 (fun x i u => Host.scatterAdd scatter_S50000x64_S800000x1_S800000x64_1_0_0_1 x i u) ]

/-- Stretch B, 15 operations: the features plus their aggregate; times the first weight matrix, plus the first bias
    (a vector made a one-row matrix, then repeated down the rows), the rectifier (maximum with the zero matrix); the
    same with the second weight matrix and bias. -/
abbrev opsB : List (HloOp τ sig (Elt F)) :=
  [ binary main_arg0 main_v7 main_v8 addf,
    binary main_v8 main_arg2 main_v9 (fun l r => Host.dotGeneral dot_S50000x64_S64x128_S50000x128_1_0_0_1_n_n none l r),
    unary main_arg3 main_v10 (broadcastInDim S1x128 ![1] bcast_S128_S1x128_1),
    unary main_v10 main_v11 (broadcastInDim S50000x128 ![0, 1] bcast_S1x128_S50000x128_0_1),
    binary main_v9 main_v11 main_v12 addf,
    nullary main_cst_0 (constant S_ .f32 0x00000000#32),
    unary main_cst_0 main_v13 (broadcastInDim S50000x128 ![] bcast_S_S50000x128),
    binary main_v12 main_v13 main_v14 maximumf,
    binary main_v14 main_arg4 main_v15 (fun l r => Host.dotGeneral dot_S50000x128_S128x128_S50000x128_1_0_0_1_n_n none l r),
    unary main_arg5 main_v16 (broadcastInDim S1x128 ![1] bcast_S128_S1x128_1),
    unary main_v16 main_v17 (broadcastInDim S50000x128 ![0, 1] bcast_S1x128_S50000x128_0_1),
    binary main_v15 main_v17 main_v18 addf,
    nullary main_cst_1 (constant S_ .f32 0x00000000#32),
    unary main_cst_1 main_v19 (broadcastInDim S50000x128 ![] bcast_S_S50000x128),
    binary main_v18 main_v19 main_v20 maximumf ]

/-- Stretch C, 27 operations: the look-up of the hidden features at the sources (the same 23 operations, on rows of
    128 entries), the zero matrix, the destinations as a column, the scatter-add. -/
abbrev opsC : List (HloOp τ sig (Elt F)) :=
  [ TRef.nullary main_call1.c (constantI S_ 32 0#32),
    TRef.unary main_call1.c main_call1.v0 (broadcastInDim S800000 ![] bcast_S_S800000),
    TRef.binary (.of main_v1) main_call1.v0 main_call1.v1 (cmpi .slt),
    TRef.nullary main_call1.c_0 (constantI S_ 32 50000#32),
    TRef.unary main_call1.c_0 main_call1.v2 (broadcastInDim S800000 ![] bcast_S_S800000),
    TRef.binary (.of main_v1) main_call1.v2 main_call1.v3 addi,
    TRef.ternary main_call1.v1 main_call1.v3 (.of main_v1) main_call1.call0.v0 select,
    TRef.unary main_call1.call0.v0 main_call1.v5 (broadcastInDim S800000x1 ![0] bcast_S800000_S800000x1_0),
    TRef.nullary main_call1.c_1 (constantI S1 32 49999#32),
    TRef.nullary main_call1.c_2 (constantI S_ 32 0#32),
    TRef.unary main_call1.c_2 main_call1.v6 (broadcastInDim S800000x1 ![] bcast_S_S800000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S800000x1 ![0, 1] bcast_S1x1_S800000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S800000x1_S800000_d1 h_S_),
    TRef.binary (.of main_v20) main_call1.v5 main_call1.v13 (fun x i => Host.gather gather_S50000x128_S800000x1_S800000x128_1_0_n_n_0_1_1128 x i),
    TRef.unary main_call1.v12 main_call1.v14 (broadcastInDim S800000x128 ![0] bcast_S800000_S800000x128_0),
    TRef.nullary main_call1.cst (constant S_ .f32 0x7FC00000#32),
    TRef.unary main_call1.cst main_call1.v15 (broadcastInDim S800000x128 ![] bcast_S_S800000x128),
    TRef.ternary main_call1.v14 main_call1.v13 main_call1.v15 main_call1.v16 select,
    nullary main_cst_2 (constant S_ .f32 0x00000000#32),
    unary main_cst_2 main_v22 (broadcastInDim S50000x128 ![] bcast_S_S50000x128),
    unary main_v3 main_v23 (broadcastInDim S800000x1 ![0] bcast_S800000_S800000x1_0),
    ternary main_v22 main_v23 main_v21 main_v24 (fun x i u => Host.scatterAdd scatter_S50000x128_S800000x1_S800000x128_1_0_0_1 x i u) ]

/-- Stretch D, 19 operations: the hidden features plus their aggregate; the second convolution's two affine layers,
    each followed by the rectifier; the read-out: times the [128, 1] matrix, plus the one-entry bias. -/
abbrev opsD : List (HloOp τ sig (Elt F)) :=
  [ binary main_v20 main_v24 main_v25 addf,
    binary main_v25 main_arg6 main_v26 (fun l r => Host.dotGeneral dot_S50000x128_S128x128_S50000x128_1_0_0_1_n_n none l r),
    unary main_arg7 main_v27 (broadcastInDim S1x128 ![1] bcast_S128_S1x128_1),
    unary main_v27 main_v28 (broadcastInDim S50000x128 ![0, 1] bcast_S1x128_S50000x128_0_1),
    binary main_v26 main_v28 main_v29 addf,
    nullary main_cst_3 (constant S_ .f32 0x00000000#32),
    unary main_cst_3 main_v30 (broadcastInDim S50000x128 ![] bcast_S_S50000x128),
    binary main_v29 main_v30 main_v31 maximumf,
    binary main_v31 main_arg8 main_v32 (fun l r => Host.dotGeneral dot_S50000x128_S128x128_S50000x128_1_0_0_1_n_n none l r),
    unary main_arg9 main_v33 (broadcastInDim S1x128 ![1] bcast_S128_S1x128_1),
    unary main_v33 main_v34 (broadcastInDim S50000x128 ![0, 1] bcast_S1x128_S50000x128_0_1),
    binary main_v32 main_v34 main_v35 addf,
    nullary main_cst_4 (constant S_ .f32 0x00000000#32),
    unary main_cst_4 main_v36 (broadcastInDim S50000x128 ![] bcast_S_S50000x128),
    binary main_v35 main_v36 main_v37 maximumf,
    binary main_v37 main_arg10 main_v38 (fun l r => Host.dotGeneral dot_S50000x128_S128x1_S50000x1_1_0_0_1_n_n none l r),
    unary main_arg11 main_v39 (broadcastInDim S1x1 ![1] bcast_S1_S1x1_1),
    unary main_v39 main_v40 (broadcastInDim S50000x1 ![0, 1] bcast_S1x1_S50000x1_0_1),
    binary main_v38 main_v40 main_v41 addf ]

/-- @main's 92 operations, in order: the four stretches end to end. -/
abbrev ops : List (HloOp τ sig (Elt F)) := opsA ++ (opsB ++ (opsC ++ opsD))

set_option maxHeartbeats 1600000 in
/-- @main is that straight line: with the outlined functions' definitions unfolded at their calls, both sides are
    one chain of single operations once sequencing is re-associated. -/
theorem main_eq (c : Dev nD) : main (F := F) c = seq ops := by
  simp only [main, fn_take.body, fn_take_0.body, fn_where.body, ops, opsA, opsB, opsC, opsD, List.cons_append, List.nil_append,
    seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨unary_bufs_sub .., reshape_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., unary_bufs_sub .., unary_bufs_sub .., ternary_bufs_sub ..⟩

theorem opsB_sub : (opsB : List (HloOp τ sig (Elt F))).Forall fun op => op.bufs ⊆ tcRefs τ sig :=
  ⟨binary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    nullary_bufs_sub .., unary_bufs_sub .., binary_bufs_sub ..⟩

theorem opsC_sub : (opsC : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., unary_bufs_sub .., unary_bufs_sub .., ternary_bufs_sub ..⟩

theorem opsD_sub : (opsD : List (HloOp τ sig (Elt F))).Forall fun op => op.bufs ⊆ tcRefs τ sig :=
  ⟨binary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub ..⟩

theorem ops_sub : (ops : List (HloOp τ sig (Elt F))).Forall fun op => op.bufs ⊆ tcRefs τ sig :=
  List.forall_append.mpr ⟨opsA_sub, List.forall_append.mpr ⟨opsB_sub, List.forall_append.mpr ⟨opsC_sub, opsD_sub⟩⟩⟩

/-- At the compiled mesh, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.LibAfterAppend.lean ====
/-
  The fold of host operations over two lines set end to end.

  `StableHlo.after ops V` is the device's buffer contents after the operations `ops`, in order, from contents `V`. Over
  a concatenation it is the fold over the second line of the fold over the first — for any signature and any type of
  values. With it a long line that is given as several stretches (`List.flatten [s₀, s₁, …]`, after
  `List.flatten_cons` a chain of `++`) is read one stretch at a time: each stretch from ANY contents of which the
  buffers it reads are known, so that no comparison is longer than a stretch.
-/
import Idealize.ShloMosaic.Lib.StableHlo.Run

namespace Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op ops ih => simp only [List.cons_append, after_cons]; exact ih _

end Idealize.ShloMosaic.StableHlo
-- ==== Proof.RefValue.lean ====
/-
  The reference program's result as a function of its twelve arguments, and its rows.

  The program's line of host operations is read in four stretches. Two of them are the neighbourhood sums
  (look up the rows at the edges' sources, add them up at the edges' destinations): they are carried as two functions
  of a feature matrix and the edge list and never opened. The other two are the per-node layers: the first convolution
  (features plus their sum over the neighbours, through two affine layers, each followed by the rectifier) and the second
  convolution followed by the affine read-out. Row by row these are the convolution and the read-out of the
  one-node description: a plain matrix product is the linear layer of a row, a bias made a one-row matrix and repeated
  down the rows adds the bias to every row, and a maximum with the zero matrix is the rectifier of a row.
-/
import proofs.«133278_j4423816315318_1_alg».proof.Proof.RefRun
import proofs.«133278_j4423816315318_1_alg».proof.Proof.GinSpec
import proofs.«133278_j4423816315318_1_alg».proof.Proof.LibRowRead
import proofs.«133278_j4423816315318_1_alg».proof.Proof.LibAfterAppend

noncomputable section

namespace Cert.ReferenceIdeal.RefValue

open Cert.ReferenceIdeal Cert.ReferenceIdeal.Gen Idealize.ShloMosaic Idealize.ShloMosaic.ValueIdx RowRead GinSpec
open Idealize.ShloMosaic.TcCoe Idealize.SL.Sem Idealize.ShloMosaic.StableHlo

/-- The edge list: row 0 the sources, row 1 the destinations. -/
abbrev EI := (⟨S2x800000, .i32⟩ : BufTy).Contents (Elt Ideal)

/-! ## The four stretches as functions -/

/-- The first neighbourhood sum: the rows of the features x at the edges' sources (an index below zero counted from
    the end, a row of not-a-number for an index out of range), added up at the edges' destinations into the zero
    matrix. -/
def agg1 (x : FVec Ideal S50000x64 .f32) (ei : EI) : FVec Ideal S50000x64 .f32 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0
      (shapeCast S800000 (extractStridedSlice S1x800000 ![1, 0] ei slices_S2x800000_S1x800000_1_0) shapeCasts_S1x800000_S800000))
    (select
      (broadcastInDim S800000x64 ![0] bcast_S800000_S800000x64_0
        (Host.reduce IntOp.andi
          (andi
            (cmpi .sge
              (broadcastInDim S800000x1 ![0] bcast_S800000_S800000x1_0
                (select
                  (cmpi .slt (shapeCast S800000 (extractStridedSlice S1x800000 ![0, 0] ei slices_S2x800000_S1x800000_0_0) shapeCasts_S1x800000_S800000) (broadcastInDim S800000 ![] bcast_S_S800000 (constantI S_ 32 0#32)))
                  (addi (shapeCast S800000 (extractStridedSlice S1x800000 ![0, 0] ei slices_S2x800000_S1x800000_0_0) shapeCasts_S1x800000_S800000) (broadcastInDim S800000 ![] bcast_S_S800000 (constantI S_ 32 50000#32)))
                  (shapeCast S800000 (extractStridedSlice S1x800000 ![0, 0] ei slices_S2x800000_S1x800000_0_0) shapeCasts_S1x800000_S800000)))
              (broadcastInDim S800000x1 ![] bcast_S_S800000x1 (constantI S_ 32 0#32)))
            (cmpi .sle
              (broadcastInDim S800000x1 ![0] bcast_S800000_S800000x1_0
                (select
                  (cmpi .slt (shapeCast S800000 (extractStridedSlice S1x800000 ![0, 0] ei slices_S2x800000_S1x800000_0_0) shapeCasts_S1x800000_S800000) (broadcastInDim S800000 ![] bcast_S_S800000 (constantI S_ 32 0#32)))
                  (addi (shapeCast S800000 (extractStridedSlice S1x800000 ![0, 0] ei slices_S2x800000_S1x800000_0_0) shapeCasts_S1x800000_S800000) (broadcastInDim S800000 ![] bcast_S_S800000 (constantI S_ 32 50000#32)))
                  (shapeCast S800000 (extractStridedSlice S1x800000 ![0, 0] ei slices_S2x800000_S1x800000_0_0) shapeCasts_S1x800000_S800000)))
              (broadcastInDim S800000x1 ![0, 1] bcast_S1x1_S800000x1_0_1 (broadcastInDim S1x1 ![1] bcast_S1_S1x1_1 (constantI S1 32 49999#32)))))
          (constantI S_ 1 1#1) reducesTo_S800000x1_S800000_d1 h_S_))
      (Host.gather gather_S50000x64_S800000x1_S800000x64_1_0_n_n_0_1_164 x
        (broadcastInDim S800000x1 ![0] bcast_S800000_S800000x1_0
          (select
            (cmpi .slt (shapeCast S800000 (extractStridedSlice S1x800000 ![0, 0] ei slices_S2x800000_S1x800000_0_0) shapeCasts_S1x800000_S800000) (broadcastInDim S800000 ![] bcast_S_S800000 (constantI S_ 32 0#32)))
            (addi (shapeCast S800000 (extractStridedSlice S1x800000 ![0, 0] ei slices_S2x800000_S1x800000_0_0) shapeCasts_S1x800000_S800000) (broadcastInDim S800000 ![] bcast_S_S800000 (constantI S_ 32 50000#32)))
            (shapeCast S800000 (extractStridedSlice S1x800000 ![0, 0] ei slices_S2x800000_S1x800000_0_0) shapeCasts_S1x800000_S800000))))
      (broadcastInDim S800000x64 ![] bcast_S_S800000x64 (constant (F := Ideal) S_ .f32 0x7FC00000#32)))

/-- The first convolution on every node: the features x plus their neighbourhood sum a, times the first weight
    matrix, plus the first bias, the rectifier; times the second weight matrix, plus the second bias, the rectifier. -/
def hid (x a : FVec Ideal S50000x64 .f32) (W1 : FVec Ideal S64x128 .f32) (b1 : FVec Ideal S128 .f32)
    (W2 : FVec Ideal S128x128 .f32) (b2 : FVec Ideal S128 .f32) : FVec Ideal S50000x128 .f32 :=
  maximumf
    (addf
      (Host.dotGeneral dot_S50000x128_S128x128_S50000x128_1_0_0_1_n_n none
        (maximumf
          (addf
            (Host.dotGeneral dot_S50000x64_S64x128_S50000x128_1_0_0_1_n_n none (addf x a) W1)
            (broadcastInDim S50000x128 ![0, 1] bcast_S1x128_S50000x128_0_1 (broadcastInDim S1x128 ![1] bcast_S128_S1x128_1 b1)))
          (broadcastInDim S50000x128 ![] bcast_S_S50000x128 (constant (F := Ideal) S_ .f32 0x00000000#32)))
        W2)
      (broadcastInDim S50000x128 ![0, 1] bcast_S1x128_S50000x128_0_1 (broadcastInDim S1x128 ![1] bcast_S128_S1x128_1 b2)))
    (broadcastInDim S50000x128 ![] bcast_S_S50000x128 (constant (F := Ideal) S_ .f32 0x00000000#32))

/-- The second neighbourhood sum: the same look-up and scatter-add, on the hidden features h (rows of 128 entries). -/
def agg2 (h : FVec Ideal S50000x128 .f32) (ei : EI) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0
      (shapeCast S800000 (extractStridedSlice S1x800000 ![1, 0] ei slices_S2x800000_S1x800000_1_0) shapeCasts_S1x800000_S800000))
    (select
      (broadcastInDim S800000x128 ![0] bcast_S800000_S800000x128_0
        (Host.reduce IntOp.andi
          (andi
            (cmpi .sge
              (broadcastInDim S800000x1 ![0] bcast_S800000_S800000x1_0
                (select
                  (cmpi .slt (shapeCast S800000 (extractStridedSlice S1x800000 ![0, 0] ei slices_S2x800000_S1x800000_0_0) shapeCasts_S1x800000_S800000) (broadcastInDim S800000 ![] bcast_S_S800000 (constantI S_ 32 0#32)))
                  (addi (shapeCast S800000 (extractStridedSlice S1x800000 ![0, 0] ei slices_S2x800000_S1x800000_0_0) shapeCasts_S1x800000_S800000) (broadcastInDim S800000 ![] bcast_S_S800000 (constantI S_ 32 50000#32)))
                  (shapeCast S800000 (extractStridedSlice S1x800000 ![0, 0] ei slices_S2x800000_S1x800000_0_0) shapeCasts_S1x800000_S800000)))
              (broadcastInDim S800000x1 ![] bcast_S_S800000x1 (constantI S_ 32 0#32)))
            (cmpi .sle
              (broadcastInDim S800000x1 ![0] bcast_S800000_S800000x1_0
                (select
                  (cmpi .slt (shapeCast S800000 (extractStridedSlice S1x800000 ![0, 0] ei slices_S2x800000_S1x800000_0_0) shapeCasts_S1x800000_S800000) (broadcastInDim S800000 ![] bcast_S_S800000 (constantI S_ 32 0#32)))
                  (addi (shapeCast S800000 (extractStridedSlice S1x800000 ![0, 0] ei slices_S2x800000_S1x800000_0_0) shapeCasts_S1x800000_S800000) (broadcastInDim S800000 ![] bcast_S_S800000 (constantI S_ 32 50000#32)))
                  (shapeCast S800000 (extractStridedSlice S1x800000 ![0, 0] ei slices_S2x800000_S1x800000_0_0) shapeCasts_S1x800000_S800000)))
              (broadcastInDim S800000x1 ![0, 1] bcast_S1x1_S800000x1_0_1 (broadcastInDim S1x1 ![1] bcast_S1_S1x1_1 (constantI S1 32 49999#32)))))
          (constantI S_ 1 1#1) reducesTo_S800000x1_S800000_d1 h_S_))
      (Host.gather gather_S50000x128_S800000x1_S800000x128_1_0_n_n_0_1_1128 h
        (broadcastInDim S800000x1 ![0] bcast_S800000_S800000x1_0
          (select
            (cmpi .slt (shapeCast S800000 (extractStridedSlice S1x800000 ![0, 0] ei slices_S2x800000_S1x800000_0_0) shapeCasts_S1x800000_S800000) (broadcastInDim S800000 ![] bcast_S_S800000 (constantI S_ 32 0#32)))
            (addi (shapeCast S800000 (extractStridedSlice S1x800000 ![0, 0] ei slices_S2x800000_S1x800000_0_0) shapeCasts_S1x800000_S800000) (broadcastInDim S800000 ![] bcast_S_S800000 (constantI S_ 32 50000#32)))
            (shapeCast S800000 (extractStridedSlice S1x800000 ![0, 0] ei slices_S2x800000_S1x800000_0_0) shapeCasts_S1x800000_S800000))))
      (broadcastInDim S800000x128 ![] bcast_S_S800000x128 (constant (F := Ideal) S_ .f32 0x7FC00000#32)))

/-- The second convolution and the read-out on every node: the hidden features h plus their neighbourhood sum a through
    two affine layers, each followed by the rectifier; then times the [128, 1] read-out matrix, plus its bias. -/
def out (h a : FVec Ideal S50000x128 .f32) (W3 : FVec Ideal S128x128 .f32) (b3 : FVec Ideal S128 .f32)
    (W4 : FVec Ideal S128x128 .f32) (b4 : FVec Ideal S128 .f32) (Wout : FVec Ideal S128x1 .f32) (bout : FVec Ideal S1 .f32) :
    FVec Ideal S50000x1 .f32 :=
  addf
    (Host.dotGeneral dot_S50000x128_S128x1_S50000x1_1_0_0_1_n_n none
      (maximumf
        (addf
          (Host.dotGeneral dot_S50000x128_S128x128_S50000x128_1_0_0_1_n_n none
            (maximumf
              (addf
                (Host.dotGeneral dot_S50000x128_S128x128_S50000x128_1_0_0_1_n_n none (addf h a) W3)
                (broadcastInDim S50000x128 ![0, 1] bcast_S1x128_S50000x128_0_1 (broadcastInDim S1x128 ![1] bcast_S128_S1x128_1 b3)))
              (broadcastInDim S50000x128 ![] bcast_S_S50000x128 (constant (F := Ideal) S_ .f32 0x00000000#32)))
            W4)
          (broadcastInDim S50000x128 ![0, 1] bcast_S1x128_S50000x128_0_1 (broadcastInDim S1x128 ![1] bcast_S128_S1x128_1 b4)))
        (broadcastInDim S50000x128 ![] bcast_S_S50000x128 (constant (F := Ideal) S_ .f32 0x00000000#32)))
      Wout)
    (broadcastInDim S50000x1 ![0, 1] bcast_S1x1_S50000x1_0_1 (broadcastInDim S1x1 ![1] bcast_S1_S1x1_1 bout))

/-- The whole network: the read-out of the second convolution of the first convolution, each convolution fed its own
    neighbourhood sum. -/
def result (x : FVec Ideal S50000x64 .f32) (ei : EI) (W1 : FVec Ideal S64x128 .f32) (b1 : FVec Ideal S128 .f32)
    (W2 : FVec Ideal S128x128 .f32) (b2 : FVec Ideal S128 .f32) (W3 : FVec Ideal S128x128 .f32) (b3 : FVec Ideal S128 .f32)
    (W4 : FVec Ideal S128x128 .f32) (b4 : FVec Ideal S128 .f32) (Wout : FVec Ideal S128x1 .f32) (bout : FVec Ideal S1 .f32) :
    FVec Ideal S50000x1 .f32 :=
  out (hid x (agg1 x ei) W1 b1 W2 b2) (agg2 (hid x (agg1 x ei) W1 b1 W2 b2) ei) W3 b3 W4 b4 Wout bout

/-! ## Each stretch, from any contents -/

/-- Contents carried to a buffer's own type and back are the contents. -/
theorem ofBuf_toBuf {T : BufTy} (x : TRef sig T) (v : T.Contents (Elt Ideal)) : x.ofBuf (x.toBuf v) = v := by
  obtain ⟨r, h, _, _⟩ := x
  subst h
  rfl

/-- A buffer on a list of buffers: the set holding it alone is inside the list's set. -/
theorem sub_of_mem {y : Ref sig .tc} {L : List (Ref sig .tc)} (h : y ∈ L) :
    ({Proc.devRef .tc y} : Finset (DevRef τ sig)) ⊆ (L.map (Proc.devRef (τ := τ) .tc)).toFinset := by
  intro b hb
  rw [Finset.mem_singleton] at hb
  subst hb
  exact List.mem_toFinset.mpr (List.mem_map_of_mem h)

local macro "w!" : term => `(sub_of_mem (by decide))

/-- The buffers stretch A writes. -/
abbrev wrA : List (Ref sig .tc) :=
  [main_v0, main_v1, main_v2, main_v3, main_call0_c, main_call0_v0, main_call0_v1, main_call0_c_0, main_call0_v2, main_call0_v3,
    main_call0_v4, main_call0_v5, main_call0_c_1, main_call0_c_2, main_call0_v6, main_call0_v7, main_call0_v8, main_call0_v9,
    main_call0_v10, main_call0_v11, main_call0_c_3, main_call0_v12, main_call0_v13, main_call0_v14, main_call0_cst, main_call0_v15,
    main_v4, main_cst, main_v5, main_v6, main_v7]

/-- The buffers stretch B writes. -/
abbrev wrB : List (Ref sig .tc) :=
  [main_v8, main_v9, main_v10, main_v11, main_v12, main_cst_0, main_v13, main_v14, main_v15, main_v16, main_v17, main_v18, main_cst_1,
    main_v19, main_v20]

/-- The buffers stretch C writes. -/
abbrev wrC : List (Ref sig .tc) :=
  [main_call1_c, main_call1_v0, main_call1_v1, main_call1_c_0, main_call1_v2, main_call1_v3, main_call1_v4, main_call1_v5,
    main_call1_c_1, main_call1_c_2, main_call1_v6, main_call1_v7, main_call1_v8, main_call1_v9, main_call1_v10, main_call1_v11,
    main_call1_c_3, main_call1_v12, main_call1_v13, main_call1_v14, main_call1_cst, main_call1_v15, main_v21, main_cst_2, main_v22,
    main_v23, main_v24]

/-- The buffers stretch D writes. -/
abbrev wrD : List (Ref sig .tc) :=
  [main_v25, main_v26, main_v27, main_v28, main_v29, main_cst_3, main_v30, main_v31, main_v32, main_v33, main_v34, main_v35, main_cst_4,
    main_v36, main_v37, main_v38, main_v39, main_v40, main_v41]

theorem writesA : (RefRun.opsA (F := Ideal)).Forall fun op => op.writes ⊆ (wrA.map (Proc.devRef (τ := τ) .tc)).toFinset :=
  ⟨w!, w!, w!, w!, w!, w!, w!, w!, w!, w!, w!, w!, w!, w!, w!, w!, w!, w!, w!, w!, w!, w!, w!, w!, w!, w!, w!, w!, w!, w!, w!⟩

theorem writesB : (RefRun.opsB (F := Ideal)).Forall fun op => op.writes ⊆ (wrB.map (Proc.devRef (τ := τ) .tc)).toFinset :=
  ⟨w!, w!, w!, w!, w!, w!, w!, w!, w!, w!, w!, w!, w!, w!, w!⟩

theorem writesC : (RefRun.opsC (F := Ideal)).Forall fun op => op.writes ⊆ (wrC.map (Proc.devRef (τ := τ) .tc)).toFinset :=
  ⟨w!, w!, w!, w!, w!, w!, w!, w!, w!, w!, w!, w!, w!, w!, w!, w!, w!, w!, w!, w!, w!, w!, w!, w!, w!, w!, w!⟩

theorem writesD : (RefRun.opsD (F := Ideal)).Forall fun op => op.writes ⊆ (wrD.map (Proc.devRef (τ := τ) .tc)).toFinset :=
  ⟨w!, w!, w!, w!, w!, w!, w!, w!, w!, w!, w!, w!, w!, w!, w!, w!, w!, w!, w!⟩

section Stretches

variable (W : Valuation τ sig (Elt Ideal))

/-- A buffer stretch A does not write keeps its contents; the same for the other three. -/
theorem A_keep {b : Ref sig .tc} (hb : b ∉ wrA) :
    after (RefRun.opsA (F := Ideal)) W (b : DevRef τ sig) = W (b : DevRef τ sig) := after_of_writes_sub _ W writesA hb
theorem B_keep {b : Ref sig .tc} (hb : b ∉ wrB) :
    after (RefRun.opsB (F := Ideal)) W (b : DevRef τ sig) = W (b : DevRef τ sig) := after_of_writes_sub _ W writesB hb
theorem C_keep {b : Ref sig .tc} (hb : b ∉ wrC) :
    after (RefRun.opsC (F := Ideal)) W (b : DevRef τ sig) = W (b : DevRef τ sig) := after_of_writes_sub _ W writesC hb
theorem D_keep {b : Ref sig .tc} (hb : b ∉ wrD) :
    after (RefRun.opsD (F := Ideal)) W (b : DevRef τ sig) = W (b : DevRef τ sig) := after_of_writes_sub _ W writesD hb

attribute [local irreducible] Host.gather Host.scatterAdd Host.reduce in
/-- Stretch A leaves the first neighbourhood sum of the features and the edge list in its last buffer. -/
theorem A_v7 : after (RefRun.opsA (F := Ideal)) W (main_v7 : DevRef τ sig)
    = agg1 (W (main_arg0 : DevRef τ sig)) (W (main_arg1 : DevRef τ sig)) := by
  after_results_simp
  simp only [ofBuf_toBuf]
  rfl

/-- Stretch A leaves the edges' sources as a vector. -/
theorem A_v1 : after (RefRun.opsA (F := Ideal)) W (main_v1 : DevRef τ sig)
    = shapeCast S800000 (extractStridedSlice S1x800000 ![0, 0] (W (main_arg1 : DevRef τ sig)) slices_S2x800000_S1x800000_0_0)
        shapeCasts_S1x800000_S800000 := by
  simp only [after_cons, after_nil]
  rfl

/-- Stretch A leaves the edges' destinations as a vector. -/
theorem A_v3 : after (RefRun.opsA (F := Ideal)) W (main_v3 : DevRef τ sig)
    = shapeCast S800000 (extractStridedSlice S1x800000 ![1, 0] (W (main_arg1 : DevRef τ sig)) slices_S2x800000_S1x800000_1_0)
        shapeCasts_S1x800000_S800000 := by
  simp only [after_cons, after_nil]
  rfl

/-- Stretch B leaves the first convolution of the features and their neighbourhood sum in its last buffer. -/
theorem B_v20 : after (RefRun.opsB (F := Ideal)) W (main_v20 : DevRef τ sig)
    = hid (W (main_arg0 : DevRef τ sig)) (W (main_v7 : DevRef τ sig)) (W (main_arg2 : DevRef τ sig)) (W (main_arg3 : DevRef τ sig))
        (W (main_arg4 : DevRef τ sig)) (W (main_arg5 : DevRef τ sig)) := by
  after_results_simp
  rfl

attribute [local irreducible] Host.gather Host.scatterAdd Host.reduce in
/-- Stretch C, from contents that hold the sources and the destinations of an edge list as vectors, leaves the second
    neighbourhood sum of the hidden features and that edge list in its last buffer. -/
theorem C_v24 (ei : EI)
    (h1 : W (main_v1 : DevRef τ sig)
      = shapeCast S800000 (extractStridedSlice S1x800000 ![0, 0] ei slices_S2x800000_S1x800000_0_0) shapeCasts_S1x800000_S800000)
    (h3 : W (main_v3 : DevRef τ sig)
      = shapeCast S800000 (extractStridedSlice S1x800000 ![1, 0] ei slices_S2x800000_S1x800000_1_0) shapeCasts_S1x800000_S800000) :
    after (RefRun.opsC (F := Ideal)) W (main_v24 : DevRef τ sig) = agg2 (W (main_v20 : DevRef τ sig)) ei := by
  unfold agg2
  rw [← h1, ← h3]
  after_results_simp
  simp only [ofBuf_toBuf]
  rfl

/-- Stretch D leaves the read-out of the second convolution of the hidden features and their neighbourhood sum in its
    last buffer. -/
theorem D_v41 : after (RefRun.opsD (F := Ideal)) W (main_v41 : DevRef τ sig)
    = out (W (main_v20 : DevRef τ sig)) (W (main_v24 : DevRef τ sig)) (W (main_arg6 : DevRef τ sig)) (W (main_arg7 : DevRef τ sig))
        (W (main_arg8 : DevRef τ sig)) (W (main_arg9 : DevRef τ sig)) (W (main_arg10 : DevRef τ sig)) (W (main_arg11 : DevRef τ sig)) := by
  after_results_simp
  rfl

end Stretches

/-! ## The whole line -/

theorem ops_split : RefRun.ops (F := Ideal) = RefRun.opsA ++ (RefRun.opsB ++ (RefRun.opsC ++ RefRun.opsD)) := rfl

/-- A buffer no stretch writes keeps its contents over the whole line. -/
theorem ops_keep (V : Valuation τ sig (Elt Ideal)) {b : Ref sig .tc} (hA : b ∉ wrA) (hB : b ∉ wrB) (hC : b ∉ wrC) (hD : b ∉ wrD) :
    after (RefRun.ops (F := Ideal)) V (b : DevRef τ sig) = V (b : DevRef τ sig) := by
  rw [ops_split, after_append, after_append, after_append, D_keep _ hD, C_keep _ hC, B_keep _ hB, A_keep _ hA]

/-- The result buffer after the whole line is the network of the twelve arguments. -/
theorem ops_v41 (V : Valuation τ sig (Elt Ideal)) :
    after (RefRun.ops (F := Ideal)) V (main_v41 : DevRef τ sig)
      = result (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) (V (main_arg10 : DevRef τ sig)) (V (main_arg11 : DevRef τ sig)) := by
  rw [ops_split, after_append, after_append, after_append, D_v41,
    C_v24 _ (V (main_arg1 : DevRef τ sig))
      ((B_keep _ (b := main_v1) (by decide)).trans (A_v1 V)) ((B_keep _ (b := main_v3) (by decide)).trans (A_v3 V)),
    C_keep _ (b := main_v20) (by decide), B_v20, A_v7,
    C_keep _ (b := main_arg6) (by decide), C_keep _ (b := main_arg7) (by decide), C_keep _ (b := main_arg8) (by decide),
    C_keep _ (b := main_arg9) (by decide), C_keep _ (b := main_arg10) (by decide), C_keep _ (b := main_arg11) (by decide),
    B_keep _ (b := main_arg6) (by decide), B_keep _ (b := main_arg7) (by decide), B_keep _ (b := main_arg8) (by decide),
    B_keep _ (b := main_arg9) (by decide), B_keep _ (b := main_arg10) (by decide), B_keep _ (b := main_arg11) (by decide),
    A_keep V (b := main_arg0) (by decide), A_keep V (b := main_arg2) (by decide), A_keep V (b := main_arg3) (by decide),
    A_keep V (b := main_arg4) (by decide), A_keep V (b := main_arg5) (by decide), A_keep V (b := main_arg6) (by decide),
    A_keep V (b := main_arg7) (by decide), A_keep V (b := main_arg8) (by decide), A_keep V (b := main_arg9) (by decide),
    A_keep V (b := main_arg10) (by decide), A_keep V (b := main_arg11) (by decide)]
  rfl

/-- On every device, from any memory with zero counters: every weakly fair execution of @main terminates with the result
    buffer holding the network of the twelve arguments' launch contents, and the arguments unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v41)
        = result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c main_v41).trans (ops_v41 _),
      (h c main_arg0).trans (ops_keep _ (by decide) (by decide) (by decide) (by decide)),
      (h c main_arg1).trans (ops_keep _ (by decide) (by decide) (by decide) (by decide)),
      (h c main_arg2).trans (ops_keep _ (by decide) (by decide) (by decide) (by decide)),
      (h c main_arg3).trans (ops_keep _ (by decide) (by decide) (by decide) (by decide)),
      (h c main_arg4).trans (ops_keep _ (by decide) (by decide) (by decide) (by decide)),
      (h c main_arg5).trans (ops_keep _ (by decide) (by decide) (by decide) (by decide)),
      (h c main_arg6).trans (ops_keep _ (by decide) (by decide) (by decide) (by decide)),
      (h c main_arg7).trans (ops_keep _ (by decide) (by decide) (by decide) (by decide)),
      (h c main_arg8).trans (ops_keep _ (by decide) (by decide) (by decide) (by decide)),
      (h c main_arg9).trans (ops_keep _ (by decide) (by decide) (by decide) (by decide)),
      (h c main_arg10).trans (ops_keep _ (by decide) (by decide) (by decide) (by decide)),
      (h c main_arg11).trans (ops_keep _ (by decide) (by decide) (by decide) (by decide))⟩)
    (RefRun.run_main (F := Ideal) m ρ)

/-! ## The per-node layers, row by row -/

/-- A sum of two matrices, row by row. -/
theorem rowOf_addf {A n : ℕ} (u v : FVec Ideal ⟨2, ![A, n]⟩ .f32) (p : Fin A) :
    rowOf (addf u v) p = fun j => rowOf u p j + rowOf v p j := rfl

/-- A bias of 128 entries made a one-row matrix and repeated down the rows: every row is the bias. -/
theorem rowOf_bias (b : FVec Ideal S128 .f32) (p : Fin 50000) :
    rowOf (broadcastInDim S50000x128 ![0, 1] bcast_S1x128_S50000x128_0_1 (broadcastInDim S1x128 ![1] bcast_S128_S1x128_1 b)) p
      = vec b := by
  funext j
  show broadcastInDim S50000x128 ![0, 1] bcast_S1x128_S50000x128_0_1 (broadcastInDim S1x128 ![1] bcast_S128_S1x128_1 b) (ix2 p j)
    = b (ix1 j)
  rw [broadcastInDim_apply ![0, 1] bcast_S1x128_S50000x128_0_1 _ (ix2 p j) (ix2 0 j) (fun a => by
        match a with
        | ⟨0, _⟩ => rfl
        | ⟨1, _⟩ => rfl),
    broadcastInDim_apply ![1] bcast_S128_S1x128_1 b (ix2 0 j) (ix1 j) (fun a => by
        match a with
        | ⟨0, _⟩ => rfl)]

/-- The read-out's one-entry bias made a [1, 1] matrix and repeated down the rows: every row is the bias. -/
theorem rowOf_bias_out (b : FVec Ideal S1 .f32) (p : Fin 50000) :
    rowOf (broadcastInDim S50000x1 ![0, 1] bcast_S1x1_S50000x1_0_1 (broadcastInDim S1x1 ![1] bcast_S1_S1x1_1 b)) p = vec b := by
  funext j
  have hj : j.val = 0 := by have := j.isLt; omega
  show broadcastInDim S50000x1 ![0, 1] bcast_S1x1_S50000x1_0_1 (broadcastInDim S1x1 ![1] bcast_S1_S1x1_1 b) (ix2 p j) = b (ix1 j)
  rw [broadcastInDim_apply ![0, 1] bcast_S1x1_S50000x1_0_1 _ (ix2 p j) (ix2 0 j) (fun a => by
        match a with
        | ⟨0, _⟩ => rfl
        | ⟨1, _⟩ => exact hj),
    broadcastInDim_apply ![1] bcast_S1_S1x1_1 b (ix2 0 j) (ix1 j) (fun a => by
        match a with
        | ⟨0, _⟩ => exact hj)]

/-- Row p of the first convolution's result is the one-node convolution of row p of the features and row p of their
    neighbourhood sum. -/
theorem rowOf_hid (x a : FVec Ideal S50000x64 .f32) (W1 : FVec Ideal S64x128 .f32) (b1 : FVec Ideal S128 .f32)
    (W2 : FVec Ideal S128x128 .f32) (b2 : FVec Ideal S128 .f32) (p : Fin 50000) :
    rowOf (hid x a W1 b1 W2 b2) p = conv (mat W1) (vec b1) (mat W2) (vec b2) (rowOf x p) (rowOf a p) := by
  unfold hid
  rw [rowOf_max_host, rowOf_addf, rowOf_dotGeneral dot_S50000x128_S128x128_S50000x128_1_0_0_1_n_n rfl, rowOf_bias, rowOf_max_host,
    rowOf_addf, rowOf_dotGeneral dot_S50000x64_S64x128_S50000x128_1_0_0_1_n_n rfl, rowOf_bias, rowOf_addf]
  rfl

/-- Row p of the network's result is the read-out of the one-node second convolution of row p of the hidden features and
    row p of their neighbourhood sum. -/
theorem rowOf_out (h a : FVec Ideal S50000x128 .f32) (W3 : FVec Ideal S128x128 .f32) (b3 : FVec Ideal S128 .f32)
    (W4 : FVec Ideal S128x128 .f32) (b4 : FVec Ideal S128 .f32) (Wout : FVec Ideal S128x1 .f32) (bout : FVec Ideal S1 .f32)
    (p : Fin 50000) :
    rowOf (out h a W3 b3 W4 b4 Wout bout) p
      = dense (mat Wout) (vec bout) (conv (mat W3) (vec b3) (mat W4) (vec b4) (rowOf h p) (rowOf a p)) := by
  unfold out
  rw [rowOf_addf, rowOf_dotGeneral dot_S50000x128_S128x1_S50000x1_1_0_0_1_n_n rfl, rowOf_bias_out, rowOf_max_host, rowOf_addf,
    rowOf_dotGeneral dot_S50000x128_S128x128_S50000x128_1_0_0_1_n_n rfl, rowOf_bias, rowOf_max_host, rowOf_addf,
    rowOf_dotGeneral dot_S50000x128_S128x128_S50000x128_1_0_0_1_n_n rfl, rowOf_bias, rowOf_addf]
  rfl

end Cert.ReferenceIdeal.RefValue

end
-- ==== Proof.Bridge.lean ====
/-
  The two programs compute one function.

  Both programs aggregate every node's in-neighbours with the same gather and scatter-add on the host; that
  aggregation is carried here as one function of a feature matrix and the edge list, never opened, and the two
  programs' spellings of it are the same term. Around it, the kernel program runs the dense layers of each
  convolution in a tiled region — after the last tile its result array is the row-by-row convolution of the arrays
  the region found — while the reference runs them as whole-array matrix products. Row by row both are the same
  composition of affine layers and rectifiers of the same operands in the same order, so the hidden features agree,
  hence their aggregations agree, hence the outputs agree. The kernel's bias rows are the bias vectors cast to one-row
  matrices; the reference spreads the vectors themselves over the rows: the same entries.
-/
import proofs.«133278_j4423816315318_1_alg».proof.Proof.KTile0
import proofs.«133278_j4423816315318_1_alg».proof.Proof.KTile1
import proofs.«133278_j4423816315318_1_alg».proof.Proof.KernelHost
import proofs.«133278_j4423816315318_1_alg».proof.Proof.RefValue
import Idealize.ShloMosaic.Lib.ValueLayout

noncomputable section

namespace Cert.Bridge

open Idealize.ShloMosaic Idealize.ShloMosaic.ValueIdx Idealize.ShloMosaic.TcCoe Idealize.SL.Sem RowRead GinSpec
open Cert.KernelIdeal Cert.KernelIdeal.Gen Cert.KernelIdeal.KValue

/-- A vector cast to a one-row matrix has the vector's entries in its row. -/
theorem row0_cast {n : ℕ} (b : (⟨1, ![n]⟩ : Shape).Idx → EReal) (h : (⟨1, ![n]⟩ : Shape).ShapeCasts ⟨2, ![1, n]⟩) :
    row0 (shapeCast ⟨2, ![1, n]⟩ b h) = vec b :=
  funext fun j => shapeCast_a_1a_apply b h 0 j

/-- Equal inputs give equal hidden features. -/
theorem hidden_congr {x x' a a' : FVec Ideal S50000x64 .f32} {W U : FVec Ideal S64x128 .f32} {b d : FVec Ideal S1x128 .f32}
    {W' U' : FVec Ideal S128x128 .f32} {b' d' : FVec Ideal S1x128 .f32}
    (h0 : x = x') (h1 : a = a') (h2 : W = U) (h3 : b = d) (h4 : W' = U') (h5 : b' = d') :
    KTile0.hidden x a W b W' b' = KTile0.hidden x' a' U d U' d' := by
  subst h0 h1 h2 h3 h4 h5; rfl

/-- Equal inputs give equal outputs. -/
theorem readout_congr {h h' a a' : FVec Ideal S50000x128 .f32} {W U : FVec Ideal S128x128 .f32} {b d : FVec Ideal S1x128 .f32}
    {W' U' : FVec Ideal S128x128 .f32} {b' d' : FVec Ideal S1x128 .f32} {Wo Uo : FVec Ideal S128x1 .f32}
    {bo d_o : FVec Ideal S1x1 .f32}
    (h0 : h = h') (h1 : a = a') (h2 : W = U) (h3 : b = d) (h4 : W' = U') (h5 : b' = d') (h6 : Wo = Uo) (h7 : bo = d_o) :
    KTile1.readout h a W b W' b' Wo bo = KTile1.readout h' a' U d U' d' Uo d_o := by
  subst h0 h1 h2 h3 h4 h5 h6 h7; rfl

/-- The first region's result array is the hidden features of the launch contents of the arguments: the region finds
    the features, the host's aggregation of them, the weights, and the bias vectors cast to rows. -/
theorem hidden_value (m : (ℓ : Loc nD τ sig) → Buf (Elt Ideal) ℓ) (ρ : Dev nD → PrngReg) (c : Dev nD) :
    (dat0 (F := Ideal) (V3 m ρ) c).arrAt 6 cfg0.N
      = KTile0.hidden (m ((c.tc : Thread nD τ).loc main_arg0))
          (agg1 (m ((c.tc : Thread nD τ).loc main_arg0)) (m ((c.tc : Thread nD τ).loc main_arg1)))
          (m ((c.tc : Thread nD τ).loc main_arg2)) (shapeCast S1x128 (m ((c.tc : Thread nD τ).loc main_arg3)) shapeCasts_S128_S1x128)
          (m ((c.tc : Thread nD τ).loc main_arg4)) (shapeCast S1x128 (m ((c.tc : Thread nD τ).loc main_arg5)) shapeCasts_S128_S1x128) :=
  (KTile0.final (V3 m ρ) c).trans
    (hidden_congr (V3_x m ρ c) (V3_agg m ρ c) (V3_W1 m ρ c) (V3_b1 m ρ c) (V3_W2 m ρ c) (V3_b2 m ρ c))

/-- The kernel program's result as a function of its twelve arguments: the tiled read-out of the tiled hidden
    features, each with the host's aggregation of its input. -/
def kernelResult (x : FVec Ideal S50000x64 .f32) (ei : EI) (W1 : FVec Ideal S64x128 .f32) (b1 : FVec Ideal S128 .f32)
    (W2 : FVec Ideal S128x128 .f32) (b2 : FVec Ideal S128 .f32) (W3 : FVec Ideal S128x128 .f32) (b3 : FVec Ideal S128 .f32)
    (W4 : FVec Ideal S128x128 .f32) (b4 : FVec Ideal S128 .f32) (Wout : FVec Ideal S128x1 .f32) (bout : FVec Ideal S1 .f32) :
    FVec Ideal S50000x1 .f32 :=
  KTile1.readout
    (KTile0.hidden x (agg1 x ei) W1 (shapeCast S1x128 b1 shapeCasts_S128_S1x128) W2 (shapeCast S1x128 b2 shapeCasts_S128_S1x128))
    (agg2 (KTile0.hidden x (agg1 x ei) W1 (shapeCast S1x128 b1 shapeCasts_S128_S1x128) W2 (shapeCast S1x128 b2 shapeCasts_S128_S1x128)) ei)
    W3 (shapeCast S1x128 b3 shapeCasts_S128_S1x128) W4 (shapeCast S1x128 b4 shapeCasts_S128_S1x128)
    Wout (shapeCast S1x1 bout shapeCasts_S1_S1x1)

/-- The second region's result array is `kernelResult` of the launch contents of the arguments: each region's result
    is the closed form of the arrays it found, and those are the arguments, the host's aggregations and the bias
    vectors cast to rows. -/
theorem kernel_value (m : (ℓ : Loc nD τ sig) → Buf (Elt Ideal) ℓ) (ρ : Dev nD → PrngReg) (c : Dev nD) :
    (dat1 (F := Ideal) (V6 m ρ) c).arrAt 8 cfg1.N
      = kernelResult (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11)) := by
  refine (KTile1.final (V6 m ρ) c).trans ?_
  exact readout_congr ((V6_h m ρ c).trans (hidden_value m ρ c))
    ((V6_agg m ρ c).trans (congrArg (fun z => agg2 z (m ((c.tc : Thread nD τ).loc main_arg1))) (hidden_value m ρ c)))
    (V6_W3 m ρ c) (V6_b3 m ρ c) (V6_W4 m ρ c) (V6_b4 m ρ c) (V6_Wout m ρ c) (V6_bout m ρ c)

section agree

attribute [local irreducible] Host.gather Host.scatterAdd Host.reduce

/-- The two programs spell the first aggregation with the same operations of the same operands. -/
theorem agg1_same (x : FVec Ideal S50000x64 .f32) (ei : EI) :
    agg1 x ei = Cert.ReferenceIdeal.RefValue.agg1 x ei := by
  unfold Cert.KernelIdeal.KValue.agg1 Cert.ReferenceIdeal.RefValue.agg1
  rfl

/-- And the second. -/
theorem agg2_same (h : FVec Ideal S50000x128 .f32) (ei : EI) :
    agg2 h ei = Cert.ReferenceIdeal.RefValue.agg2 h ei := by
  unfold Cert.KernelIdeal.KValue.agg2 Cert.ReferenceIdeal.RefValue.agg2
  rfl

end agree

/-- The hidden features agree: row by row both are the convolution of the node's row and its aggregated row. -/
theorem hidden_eq (x : FVec Ideal S50000x64 .f32) (ei : EI) (W1 : FVec Ideal S64x128 .f32) (b1 : FVec Ideal S128 .f32)
    (W2 : FVec Ideal S128x128 .f32) (b2 : FVec Ideal S128 .f32) :
    KTile0.hidden x (agg1 x ei) W1 (shapeCast S1x128 b1 shapeCasts_S128_S1x128) W2 (shapeCast S1x128 b2 shapeCasts_S128_S1x128)
      = Cert.ReferenceIdeal.RefValue.hid x (Cert.ReferenceIdeal.RefValue.agg1 x ei) W1 b1 W2 b2 := by
  refine ext_rows _ _ fun p => ?_
  rw [KTile0.rowOf_hidden, Cert.ReferenceIdeal.RefValue.rowOf_hid, agg1_same, row0_cast, row0_cast]

/-- THE TWO RESULTS ARE ONE FUNCTION of the twelve arguments. -/
theorem result_eq (x : FVec Ideal S50000x64 .f32) (ei : EI) (W1 : FVec Ideal S64x128 .f32) (b1 : FVec Ideal S128 .f32)
    (W2 : FVec Ideal S128x128 .f32) (b2 : FVec Ideal S128 .f32) (W3 : FVec Ideal S128x128 .f32) (b3 : FVec Ideal S128 .f32)
    (W4 : FVec Ideal S128x128 .f32) (b4 : FVec Ideal S128 .f32) (Wout : FVec Ideal S128x1 .f32) (bout : FVec Ideal S1 .f32) :
    kernelResult x ei W1 b1 W2 b2 W3 b3 W4 b4 Wout bout
      = Cert.ReferenceIdeal.RefValue.result x ei W1 b1 W2 b2 W3 b3 W4 b4 Wout bout := by
  unfold kernelResult Cert.ReferenceIdeal.RefValue.result
  rw [hidden_eq, agg2_same]
  refine ext_rows _ _ fun p => ?_
  rw [KTile1.rowOf_readout, Cert.ReferenceIdeal.RefValue.rowOf_out, row0_cast, row0_cast, row0_cast]

end Cert.Bridge

end
-- ==== Proof.lean ====
/-
  A two-layer graph-isomorphism network on 50000 nodes and 800000 edges, its dense layers as two tiled kernels,
  against the plain array program.

  Each convolution adds to a node's feature row the sum of its in-neighbours' rows (a gather of the source rows
  and a scatter-add to the targets, on the host in both programs) and sends the sum through two affine layers,
  each followed by the rectifier; a last affine layer reads out one number per node. The kernel program runs the
  layers of each convolution in a region tiled over the node axis (ten tiles of 5000 rows), the reference as
  whole-array matrix products.

  Over the extended reals, where a change of float format is the identity and a matrix product is the plain sum
  of products, the two programs compute the same function of their arguments: the host aggregations are the same
  operations of the same operands (Bridge.agg1_same, agg2_same); each region's result array, after its last tile, is
  row by row the convolution of the arrays it found (KTile0.final, KTile1.final over the bodies read in KBody), and
  so are the reference's products (RefValue.rowOf_hid, rowOf_out); the rows agree operation for operation, with no
  law of arithmetic beyond that, so no entry needs to be finite. The kernel program's frame claims are the
  generated frame certificates; the reference's frame is its run (RefRun, RefValue.run_value) with the result
  dropped; the idealization rewrote nothing, so there is nothing to preserve.
-/
import proofs.«133278_j4423816315318_1_alg».proof.Defs
import proofs.«133278_j4423816315318_1_alg».proof.Proof.Gen.Kernel
import proofs.«133278_j4423816315318_1_alg».proof.Proof.Gen.Kernel.Frame
import proofs.«133278_j4423816315318_1_alg».proof.Proof.Gen.KernelIdeal
import proofs.«133278_j4423816315318_1_alg».proof.Proof.Gen.KernelIdeal.Frame
import proofs.«133278_j4423816315318_1_alg».proof.Proof.Gen.ReferenceIdeal
import proofs.«133278_j4423816315318_1_alg».proof.Proof.Gen.Pre_finite_inputs
import proofs.«133278_j4423816315318_1_alg».proof.Proof.KernelRun
import proofs.«133278_j4423816315318_1_alg».proof.Proof.Bridge

noncomputable section

namespace Cert.Proof

open Idealize.ShloMosaic Idealize.SL.Sem

/-- The kernel program as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run, with the result forgotten. -/
theorem frame_ri : Cert.frame_ReferenceIdeal := fun m ρ _ =>
  (θ_run Cert.ReferenceIdeal.defs _ _).mono (fun _ h c => (h c).2) (Cert.ReferenceIdeal.RefValue.run_value m ρ)

/-- The idealization rewrote no operation. -/
theorem preserves : Cert.preserves_Kernel_KernelIdeal := trivial

/-- From memories agreeing on the arguments both programs end with the same result, the kernel program's
    `kernelResult` of the arguments, which is the reference's result term (Bridge.result_eq). -/
theorem algebraic : Cert.algebraic_KernelIdeal_ReferenceIdeal := by
  intro m ρ m' ρ' _ hagree
  refine ⟨fun c => Cert.Bridge.kernelResult (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun _ h c => ⟨(h c).1.trans (Cert.Bridge.kernel_value m ρ c), (h c).2⟩)
      (Cert.KernelIdeal.KValue.run_value m ρ)
  · refine (θ_run Cert.ReferenceIdeal.defs _ _).mono (fun _ h c => ⟨(h c).1.trans ?_, (h c).2⟩)
      (Cert.ReferenceIdeal.RefValue.run_value m' ρ')
    obtain ⟨a0, a1, a2, a3, a4, a5, a6, a7, a8, a9, a10, a11⟩ := hagree c
    rw [a0, a1, a2, a3, a4, a5, a6, a7, a8, a9, a10, a11]
    exact (Cert.Bridge.result_eq _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
